-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) (main_arg1 : IVec S16384 32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S512x128 : Shape := ⟨2, ![512, 128]⟩
abbrev S2048x128 : Shape := ⟨2, ![2048, 128]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩

abbrev nBuf : Space → Nat
  | .hbm => 21
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x128, .f32⟩
  | .hbm, ⟨11, _⟩ => ⟨S16384x128, .f32⟩
  | .hbm, ⟨12, _⟩ => ⟨S16384x128, .bf16⟩
  | .hbm, ⟨13, _⟩ => ⟨S16384x1, .i32⟩
  | .hbm, ⟨14, _⟩ => ⟨S1x16384, .i32⟩
  | .hbm, ⟨15, _⟩ => ⟨S16384x1, .f32⟩
  | .hbm, ⟨16, _⟩ => ⟨S16384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S512x1, .i32⟩
  | .local _ .vmem, ⟨5, _⟩ => ⟨S512x1, .i32⟩
  | .local _ .vmem, ⟨6, _⟩ => ⟨S1x2048, .i32⟩
  | .local _ .vmem, ⟨7, _⟩ => ⟨S1x2048, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bitsLt_bf16_f32 : FTy.bits .bf16 < FTy.bits .f32
  shapeCasts_S16384_S16384x1 : S16384.ShapeCasts S16384x1
  shapeCasts_S16384_S1x16384 : S16384.ShapeCasts S1x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  shapeCasts_S16384x1_S16384 : S16384x1.ShapeCasts S16384
  reducesTo_S16384_S_d0 : S16384.ReducesTo [0] S_
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .bf16 = 32 ∨ (Rect.block (s := S16384x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .i32 = 32 ∨ (Rect.block (s := S1x16384) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_v5) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384 : Shape := ⟨1, ![16384]⟩
abbrev S_ : Shape := ⟨0, ![]⟩
abbrev S16384x1 : Shape := ⟨2, ![16384, 1]⟩
abbrev S128x16384 : Shape := ⟨2, ![128, 16384]⟩
abbrev S16384x16384 : Shape := ⟨2, ![16384, 16384]⟩
abbrev S1x16384 : Shape := ⟨2, ![1, 16384]⟩

abbrev nBuf : Space → Nat
  | .hbm => 43
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x128, .f32⟩
  | .hbm, ⟨11, _⟩ => ⟨S16384x128, .f32⟩
  | .hbm, ⟨12, _⟩ => ⟨S128x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x1, .i32⟩
  | .hbm, ⟨18, _⟩ => ⟨S1x16384, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384x16384, .f32⟩
  | .hbm, ⟨28, _⟩ => ⟨S16384x16384, .f32⟩
  | .hbm, ⟨29, _⟩ => ⟨S16384x16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  transposes_S16384x128_S128x16384_1_0 : S16384x128.Transposes [1, 0] S128x16384
  bcast_S_S16384x16384 : S_.BroadcastsInDim S16384x16384 (![] : Fin 0 → Fin S16384x16384.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_
  dot_S16384x128_S128x16384_S16384x16384_1_0_0_1_n_n_wf : DotDims.WF S16384x128 S128x16384 S16384x16384 [1] [0] [0] [1] [] []

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.BitsShared.lean ====
/-
  What the per-case runs and the frame of the contrastive-loss kernel share: the contents of the device's
  buffers when the kernel region is entered (the row norms, the normalised features and the two label
  layouts are already computed by then), each window's block of its array at a grid point, the two
  conditions of the body in closed form over the grid (the first key tile of a query tile, where the two
  row accumulators are reset, and the last one, where the loss of the query rows is written), where the
  output window is idle, and the staging and accumulator buffers as the body is handed them.
  The grid is 32 query tiles by 8 key tiles, point t = 8 * (query tile) + (key tile).
-/
import proofs.«153847_j85177791414715_1_alg».proof.Proof.Gen.Kernel.Launch
import proofs.«153847_j85177791414715_1_alg».proof.Proof.Gen.Kernel.Skeleton
import proofs.«153847_j85177791414715_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: after the norm, the normalisation and the label reshapes. -/
abbrev V0 (c : Dev nD) : Valuation τ sig (Elt F) := StableHlo.after (List.flatten [hostOps0, hostOps0_1]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to its region continued by the five operations that average the row losses. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- No operation before the region writes the features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
    repeat' apply And.intro
    all_goals exact StableHlo.devRef_ne_of_ne (by decide)))

/-- Nor the labels. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved (the query rows and their labels stay for the eight key tiles). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The key tile is the first one: the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The key tile is the last one: the row losses are written. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last key tile nothing is stored into the output window, and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last key tile it is stored whole. -/
theorem liveAt0_4 : ∀ t : Fin cfg0.N, cond0_1 (grid0.coords t) → cfg0.idle 4 (grid0.coords t) = false := by decide +kernel

/-! ## The buffers the body is handed -/

/-- One staging buffer of the output window, through which its contents are stated. -/
abbrev VO0_4 : View sig .tc .vmem S512x1 .f32 := (Memref.whole cc0_stg4_0 : Memref sig .tc .vmem S512x1 .f32).view
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The two row accumulators: the sum over the key tiles so far of the similarities to keys of the same label,
    and to keys of another label. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

/-- What the region invariant holds before the first point: both accumulators at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.BitsRunA.lean ====
/-
  The body of the contrastive-loss kernel run at the first key tile of a query tile (both accumulators are reset to zero, then this tile's two masked row sums are added; nothing is stored into the output window): on whole buffers holding the four input blocks and the
  accumulators, the body runs to the end without a fault, hands the input buffers back as they were and leaves in
  each buffer it stored into the pieces named here, last store first.
-/
import proofs.«153847_j85177791414715_1_alg».proof.Proof.BitsShared
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) :
    Σ' (L4 : List (View.Piece (Elt F) S512x1 .f32)), Σ' (LS0 : List (View.Piece (Elt F) S512x1 .f32)), { LS1 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨[], ?_, ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.BitsRunB.lean ====
/-
  The body of the contrastive-loss kernel run at a key tile that is neither the first nor the last of its query tile (this tile's two masked row sums are added to the accumulators; nothing is stored into the output window): on whole buffers holding the four input blocks and the
  accumulators, the body runs to the end without a fault, hands the input buffers back as they were and leaves in
  each buffer it stored into the pieces named here, last store first.
-/
import proofs.«153847_j85177791414715_1_alg».proof.Proof.BitsRunA
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) :
    Σ' (L4 : List (View.Piece (Elt F) S512x1 .f32)), Σ' (LS0 : List (View.Piece (Elt F) S512x1 .f32)), { LS1 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨[], ?_, ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.BitsRunC.lean ====
/-
  The body of the contrastive-loss kernel run at the last key tile of a query tile (this tile's two masked row sums are added to the accumulators, then the loss of each query row, minus the logarithm of the same-label sum over the whole sum plus the small constant, is stored into the output window): on whole buffers holding the four input blocks and the
  accumulators, the body runs to the end without a fault, hands the input buffers back as they were and leaves in
  each buffer it stored into the pieces named here, last store first.
-/
import proofs.«153847_j85177791414715_1_alg».proof.Proof.BitsRunB
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) :
    Σ' (L4 : List (View.Piece (Elt F) S512x1 .f32)), Σ' (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨?_, ?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.BitsLaunch.lean ====
/-
  The launch of the contrastive-loss program: the host operations that normalise the features, the kernel region,
  and the five host operations that average the row losses. The normalised features are handed to the kernel
  through TWO of its windows (once as the query tile, once as the key tile), so the one buffer behind them is held
  half by each; the other three arrays are held whole. From a body obligation for proof data with those shares the
  run follows: every array ends at what the proof data compute and every other buffer at what the host operations
  after the region leave.
-/
import proofs.«153847_j85177791414715_1_alg».proof.Proof.BitsShared
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the five windows are four. -/
theorem arrRef_image : (Finset.univ.image (Pipeline.arrRef spec0)) = [main_v5, main_v6, main_v7, main_v8].toFinset := by decide

/-- The four buffers whole at the full share are the five windows' holdings: the features' buffer split in two. -/
theorem arrays_of_bufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs spec0 c W : sProp 𝕄) ⊢ dat.arrays G := by
  unfold Pipeline.arrBufs Dat.arrays
  rw [bigSep_eq_bigSepL_of_eq _ arrRef_image (by decide), bigSep_W0]
  have s0 : dat.share 0 = fullShare.left := (show dat.share 0 = dat.q 0 from rfl).trans hq0
  have s1 : dat.share 1 = fullShare.right := (show dat.share 1 = dat.q 1 from rfl).trans hq1
  have s2 : dat.share 2 = fullShare := (show dat.share 2 = dat.q 2 from rfl).trans hq2
  have s3 : dat.share 3 = fullShare := (show dat.share 3 = dat.q 3 from rfl).trans hq3
  have s4 : dat.share 4 = fullShare := rfl
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  rw [s0, s1, s2, s3, s4, e0]
  try rw [e1]
  rw [e2, e3, e4, hG 0, hG 1, hG 2, hG 3, hG 4]
  change (iprop((((c.tc : Thread nD τ).loc main_v5) ↦{fullShare} W main_v5) ∗ (((c.tc : Thread nD τ).loc main_v6) ↦{fullShare} W main_v6) ∗ (((c.tc : Thread nD τ).loc main_v7) ↦{fullShare} W main_v7) ∗ (((c.tc : Thread nD τ).loc main_v8) ↦{fullShare} W main_v8)) : sProp 𝕄) ⊢ _
  iintro ⟨H5, H6, H7, H8⟩
  ihave H5 := (pointsTo_share (PosShare.mem_left_op_right fullShare)).1 $$ H5
  icases H5 with ⟨H5a, H5b⟩
  isplitl [H5a]; · iexact H5a
  isplitl [H5b]; · iexact H5b
  isplitl [H6]; · iexact H6
  isplitl [H7]; · iexact H7
  iexact H8

/-- The buffers the five operations after the region touch: the row losses' buffer and the buffers that bypass the region. -/
def tailSet : Finset (DevRef τ sig) :=
  (({main_v8} : Finset (Ref sig .tc)) ∪ Pipeline.restRefsP sig Pipeline.Prefetch.none spec0).map ⟨Proc.devRef (sig := sig) .tc, Proc.devRef_injective _⟩

theorem mem_tailSet (r : Ref sig .tc) (h : r = main_v8 ∨ (r.isScoped = false ∧ ∀ w, (spec0 w).arr.view.ref ≠ r)) :
    Proc.devRef (τ := τ) .tc r ∈ tailSet := by
  classical
  unfold tailSet
  refine Finset.mem_map.mpr ⟨r, ?_, rfl⟩
  rcases h with rfl | ⟨hs, ha⟩
  · exact Finset.mem_union_left _ (Finset.mem_singleton_self _)
  · refine Finset.mem_union_right _ (Finset.mem_sdiff.mpr ⟨Pipeline.mem_restRefs_of r hs ha, ?_⟩)
    simp only [Finset.mem_image, Finset.mem_univ, true_and, not_exists]
    exact fun k => k.elim0

theorem tail_disj : Disjoint ({main_v8} : Finset (Ref sig .tc)) (Pipeline.restRefsP sig Pipeline.Prefetch.none spec0) := by
  classical
  rw [Finset.disjoint_singleton_left]
  intro h
  exact (Finset.mem_sdiff.mp (Finset.mem_sdiff.mp h).1).2 (Finset.mem_image.mpr ⟨4, Finset.mem_univ _, rfl⟩)

/-- That set held at a valuation: the row losses' buffer, and the bypassing buffers. -/
theorem held_tailSet (c : Dev nD) (Wv : Valuation τ sig (Elt F)) :
    (StableHlo.held (c.tc : Thread nD τ) tailSet Wv : sProp 𝕄)
      = iprop((((c.tc : Thread nD τ).loc main_v8) ↦{fullShare} Wv (Proc.devRef .tc main_v8))
          ∗ Pipeline.unscopedRestP Pipeline.Prefetch.none spec0 c (fun b => Wv (Proc.devRef .tc b))) := by
  classical
  unfold StableHlo.held tailSet Pipeline.unscopedRestP
  rw [bigSep_map, bigSep_union tail_disj, BI.bigSep_singleton]
  rfl

/-- Each of the five operations touches only buffers of that set. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl
  all_goals
    simp only [StableHlo.reshape_bufs, StableHlo.nullary_bufs, StableHlo.binary_bufs, Finset.insert_subset_iff, Finset.singleton_subset_iff]
    repeat' apply And.intro
    all_goals exact mem_tailSet _ (by decide)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The row losses' buffer is the fifth window's array and no other's: the valuation that puts the arrays at `A` reads `A 4` there. -/
theorem withArrays_v8 (c : Dev nD) (Vv : Valuation τ sig (Elt F)) (A : (w : Fin cfg0.W) → Buf (Elt F) ((spec0 w).arr.view.loc (c.tc : Thread nD τ))) :
    Pipeline.withArrays spec0 c Vv A (Proc.devRef .tc main_v8) = A 4 := by
  unfold Pipeline.withArrays
  have h : ∃ w', Proc.devRef .tc (Pipeline.arrRef spec0 w') = Proc.devRef (τ := τ) .tc main_v8 := ⟨4, rfl⟩
  rw [dif_pos h]
  suffices ∀ (w' : Fin 5) (e : Proc.devRef .tc (Pipeline.arrRef spec0 w') = Proc.devRef (τ := τ) .tc main_v8),
      cast (congrArg (fun b' : DevRef τ sig => b'.ty.Contents (Elt F)) e) (A w') = A 4 from this _ h.choose_spec
  intro w' e
  obtain rfl : w' = 4 := (by decide : ∀ w : Fin 5, Pipeline.arrRef spec0 w = main_v8 → w = 4) w' (Proc.devRef_injective _ e)
  rfl

/-- None of the five operations writes the row losses' buffer. -/
theorem tail_keeps_v8 : ∀ op ∈ ([hostOps1] : List (List (HloOp τ sig (Elt F)))).flatten, Proc.devRef .tc main_v8 ∉ op.writes := by
  intro op hop
  simp only [hostOps1, List.flatten_cons, List.flatten_nil, List.append_nil, List.mem_cons, List.mem_nil_iff, or_false] at hop
  rcases hop with rfl | rfl | rfl | rfl | rfl
  all_goals simp only [StableHlo.nullary_writes, StableHlo.binary_writes, StableHlo.reshape_writes, Finset.mem_singleton]; exact StableHlo.devRef_ne_of_ne (by decide)

set_option maxHeartbeats 1600000 in
set_option backward.isDefEq.respectTransparency.types false in
/-- THE OPERATIONS AFTER THE REGION: from the region's exit they run within the row losses' buffer and the bypassing
    buffers, and leave the arrays as they were and every bypassing buffer at what the five operations compute. -/
theorem tail_run (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N) ∗ Pipeline.unscopedRestP (Ix := Unit) (Name := ℕ) (U := UR sig nD τ) (Lvl := ℕ) Pipeline.Prefetch.none spec0 c (Pipeline.afterTail₀ cfgs dats 0 (V0 m) [hostOps1] c)) -∗ Q' ⟨⟩)
        ∗ boundary (c.tc : Thread nD τ) ∗ (dats 0 c).arrays ((dats 0 c).arrAt · cfg0.N) ∗ Pipeline.unscopedRestP (Ix := Unit) (Name := ℕ) (U := UR sig nD τ) (Lvl := ℕ) Pipeline.Prefetch.none spec0 c (V m c))
      ⊢ wp frame (wpE (Pipeline.defs (fun q => Cfg.toPCfg (Val := Elt F) (cfgs q)) defs₀) (Variants.lift Variants.none) (c.tc : Thread nD τ) none) Set.univ (Pipeline.chain [StableHlo.seq hostOps1]) Q' := by
  classical
  let A : (w : Fin cfg0.W) → Buf (Elt F) ((spec0 w).arr.view.loc (c.tc : Thread nD τ)) := fun w => (dats 0 c).arrAt w cfg0.N
  let Wv : Valuation τ sig (Elt F) := Pipeline.withArrays spec0 c (V0 m c) A
  have hrest : ∀ b ∈ Pipeline.restRefsP sig Pipeline.Prefetch.none spec0, Wv (Proc.devRef .tc b) = V m c b := fun b hb =>
    Pipeline.withArrays_of_ne spec0 c (V0 m c) A b fun w e => (Finset.mem_sdiff.mp (Finset.mem_sdiff.mp hb).1).2 (Finset.mem_image.mpr ⟨w, Finset.mem_univ _, e⟩)
  have hW8 : Wv (Proc.devRef .tc main_v8) = A 4 := withArrays_v8 c (V0 m c) A
  have hW : (StableHlo.held (c.tc : Thread nD τ) tailSet Wv : sProp 𝕄)
      = iprop((((c.tc : Thread nD τ).loc main_v8) ↦{fullShare} A 4) ∗ Pipeline.unscopedRestP Pipeline.Prefetch.none spec0 c (V m c)) := by
    have hR : (Pipeline.unscopedRestP Pipeline.Prefetch.none spec0 c (fun b => Wv (Proc.devRef .tc b)) : sProp 𝕄) = Pipeline.unscopedRestP Pipeline.Prefetch.none spec0 c (V m c) := by
      unfold Pipeline.unscopedRestP
      exact bigSep_congr fun b hb => by
        show (((c.tc : Thread nD τ).loc b) ↦{fullShare} Wv (Proc.devRef .tc b) : sProp 𝕄) = _
        rw [hrest b hb]
    rw [held_tailSet, hW8, hR]
  have hW' : (StableHlo.held (c.tc : Thread nD τ) tailSet (StableHlo.after ([hostOps1] : List (List (HloOp τ sig (Elt F)))).flatten Wv) : sProp 𝕄)
      = iprop((((c.tc : Thread nD τ).loc main_v8) ↦{fullShare} A 4) ∗ Pipeline.unscopedRestP Pipeline.Prefetch.none spec0 c (Pipeline.afterTail₀ cfgs dats 0 (V0 m) [hostOps1] c)) := by
    rw [held_tailSet, StableHlo.after_of_forall_not_mem _ _ tail_keeps_v8, hW8]
    rfl
  have e4 : ((cfg0.win 4).arr.view.loc (c.tc : Thread nD τ) ↦[(cfg0.win 4).arr.view.set]{(dats 0 c).share 4} (dats 0 c).arrAt 4 cfg0.N : sProp 𝕄)
      = (((c.tc : Thread nD τ).loc main_v8) ↦{fullShare} A 4) := by
    rw [(arr_whole0 4).set_eq_univ]; rfl
  have h := Pipeline.wp_seqs_then (fun q => Cfg.toPCfg (Val := Elt F) (cfgs q)) defs₀ Variants.none c tailSet [] [hostOps1] (K := Q') tail_sub tail_fresh Wv
  rw [hW, hW'] at h
  unfold Dat.arrays
  rw [bigSep_W0, e4]
  change _ ⊢ wp frame _ Set.univ (Pipeline.chain ((([hostOps1] : List (List (HloOp τ sig (Elt F)))).map StableHlo.seq) ++ [])) Q'
  iintro ⟨Hk, Hb, ⟨A0, A1, A2, A3, A4⟩, HR⟩
  iapply h $$ [Hb A4 HR]
  · isplitl [Hb]; · iexact Hb
    isplitl [A4]; · iexact A4
    iexact HR
  iintro Hb
  rw [Pipeline.chain_nil, wp_pure]
  imodintro
  iapply Hk
  icases Hb with ⟨-, H8, HR⟩
  isplitl [A0 A1 A2 A3 H8]
  · isplitl [A0]; · iexact A0
    isplitl [A1]; · iexact A1
    isplitl [A2]; · iexact A2
    isplitl [A3]; · iexact A3
    iexact H8
  iexact HR

/-- THE RUN, for any proof data of the pipeline whose two feature windows hold the two halves of the shared buffer. -/
theorem run_frame
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs c (dats 0 c) (hq0 c) (hq1 c) (hq2 c) (hq3 c) (V m c) _ (fun w => hA c w))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats c Q')
    (QY := fun c s => ∀ b ∈ Pipeline.restRefsP sig Pipeline.Prefetch.none spec0, s.mem ((c.tc : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Pipeline.afterTail₀ cfgs dats 0 (V0 m) [hostOps1] c) s')
      isplitl [HU] <;> iassumption)
    (hQ := fun s h c => ⟨(h c).1, Pipeline.rest_of_restP Pipeline.Prefetch.none spec0 (fun k => k.elim0) c (Pipeline.afterTail₀ cfgs dats 0 (V0 m) [hostOps1] c) s (fun k => k.elim0) (h c).2.1 (h c).2.2⟩)

end Cert.Kernel.Hand

end
-- ==== Proof.BitsFrame.lean ====
/-
  The frame of the contrastive-loss program: what each of the three cases of the body leaves in the output window's
  buffer and in the two row accumulators, what they hold point by point over the grid (the accumulators are reset at
  the first key tile of a query tile, added to at every key tile, and the row losses are written at the last), the
  proof data of the pipeline with the normalised features' buffer held half by the query window and half by the key
  window, the body obligation at every point, and the run.
-/
import proofs.«153847_j85177791414715_1_alg».proof.Proof.BitsRunC
import proofs.«153847_j85177791414715_1_alg».proof.Proof.BitsLaunch
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first key tile leaves in the output window's buffer: nothing is stored there, so a placeholder nothing consults. -/
def out0_A_4 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) : Vec F S512x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- The stores of the first key tile into the same-label accumulator cover it. -/
theorem scover0_A_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) (y : S512x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S512x1.size (by sl_kernel_rfl) y

/-- What the first key tile leaves in the same-label accumulator. -/
def sout0_A_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.1)

/-- The stores of the first key tile into the other-label accumulator cover it. -/
theorem scover0_A_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) (y : S512x1.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S512x1.size (by sl_kernel_rfl) y

/-- What the first key tile leaves in the other-label accumulator. -/
def sout0_A_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) : Vec F S512x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.2.1)

/-- What a middle key tile leaves in the output window's buffer: nothing is stored there, so a placeholder nothing consults. -/
def out0_B_4 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)

/-- The stores of a middle key tile into the same-label accumulator cover it. -/
theorem scover0_B_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S512x1.size (by sl_kernel_rfl) y

/-- What a middle key tile leaves in the same-label accumulator. -/
def sout0_B_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)

/-- The stores of a middle key tile into the other-label accumulator cover it. -/
theorem scover0_B_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S512x1.size (by sl_kernel_rfl) y

/-- What a middle key tile leaves in the other-label accumulator. -/
def sout0_B_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)

/-- What the last key tile leaves in the output window's buffer: the row losses, its one store read back. -/
def out0_C_4 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-- The stores of the last key tile into the same-label accumulator cover it. -/
theorem scover0_C_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S512x1.size (by sl_kernel_rfl) y

/-- What the last key tile leaves in the same-label accumulator. -/
def sout0_C_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- The stores of the last key tile into the other-label accumulator cover it. -/
theorem scover0_C_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S512x1.size (by sl_kernel_rfl) y

/-- What the last key tile leaves in the other-label accumulator. -/
def sout0_C_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

/-- The one store of the last key tile into the output window covers its block. -/
theorem cover0_C_4 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S512x1.size (by sl_kernel_rfl) y

/-! ## Point by point -/

/-- What the output window's buffer and the two accumulators hold after the body at position `n`: the case the position
    is in (first, middle or last key tile of its query tile), run on the point's blocks and, but at a first key tile,
    on what the point before left in the accumulators. -/
def outsAt0 (c : Dev nD) : (n : ℕ) → n < cfg0.N → Vec F S512x1 .f32 × Vec F S512x1 .f32 × Vec F S512x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point both accumulators at anything; afterwards each at
    what the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; the features' buffer held half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms of the two conditions say which
    case the point is in; the invariant hands the body the accumulators at what the point before left (at anything at
    the first point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _)

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

/-! ## The run -/

/-- Every weakly fair execution of the program from a memory with zero counters terminates without a fault, every array
    of the pipeline ending at what the proof data compute and every other buffer at what the operations after the
    region leave. -/
theorem run_main : θ_run defs (onTc (τ := τ) (main (F := F))) (s₀ m ρ) (Pipeline.FramePost cfgs (dats m) 0 (Pipeline.afterTail₀ cfgs (dats m) 0 (V0 m) [hostOps1])) :=
  run_frame m ρ (dats m) (fun c => (body_obligation m c).loose) (fun _ => rfl) (fun _ => rfl) (fun _ => rfl) (fun _ => rfl)
    (fun _ _ => rfl) (A_eq m) (hin m) (hout m)

/-- No operation after the region writes the features or the labels: they end as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- THE FRAME: the program runs to the end without a fault and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (W_main_arg0 m c),
     ((h c).2 main_arg1 (Pipeline.mem_restRefs_of main_arg1 rfl (by decide))).trans (W_main_arg1 m c)⟩) (run_main m ρ)

end Cert.Kernel.Hand

end
-- ==== Proof.IdealShared.lean ====
/-
  What the per-case runs and the frame of the contrastive-loss kernel share: the contents of the device's
  buffers when the kernel region is entered (the row norms, the normalised features and the two label
  layouts are already computed by then), each window's block of its array at a grid point, the two
  conditions of the body in closed form over the grid (the first key tile of a query tile, where the two
  row accumulators are reset, and the last one, where the loss of the query rows is written), where the
  output window is idle, and the staging and accumulator buffers as the body is handed them.
  The grid is 32 query tiles by 8 key tiles, point t = 8 * (query tile) + (key tile).
-/
import proofs.«153847_j85177791414715_1_alg».proof.Proof.Gen.KernelIdeal.Launch
import proofs.«153847_j85177791414715_1_alg».proof.Proof.Gen.KernelIdeal.Skeleton
import proofs.«153847_j85177791414715_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: after the norm, the normalisation and the label reshapes. -/
abbrev V0 (c : Dev nD) : Valuation τ sig (Elt F) := StableHlo.after (List.flatten [hostOps0, hostOps0_1]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to its region continued by the five operations that average the row losses. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- No operation before the region writes the features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
    repeat' apply And.intro
    all_goals exact StableHlo.devRef_ne_of_ne (by decide)))

/-- Nor the labels. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved (the query rows and their labels stay for the eight key tiles). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The key tile is the first one: the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The key tile is the last one: the row losses are written. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last key tile nothing is stored into the output window, and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last key tile it is stored whole. -/
theorem liveAt0_4 : ∀ t : Fin cfg0.N, cond0_1 (grid0.coords t) → cfg0.idle 4 (grid0.coords t) = false := by decide +kernel

/-! ## The buffers the body is handed -/

/-- One staging buffer of the output window, through which its contents are stated. -/
abbrev VO0_4 : View sig .tc .vmem S512x1 .f32 := (Memref.whole cc0_stg4_0 : Memref sig .tc .vmem S512x1 .f32).view
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The two row accumulators: the sum over the key tiles so far of the similarities to keys of the same label,
    and to keys of another label. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

/-- What the region invariant holds before the first point: both accumulators at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.IdealRunA.lean ====
/-
  The body of the contrastive-loss kernel run at the first key tile of a query tile (both accumulators are reset to zero, then this tile's two masked row sums are added; nothing is stored into the output window): on whole buffers holding the four input blocks and the
  accumulators, the body runs to the end without a fault, hands the input buffers back as they were and leaves in
  each buffer it stored into the pieces named here, last store first.
-/
import proofs.«153847_j85177791414715_1_alg».proof.Proof.IdealShared
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun0_A (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) :
    Σ' (L4 : List (View.Piece (Elt F) S512x1 .f32)), Σ' (LS0 : List (View.Piece (Elt F) S512x1 .f32)), { LS1 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨[], ?_, ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.IdealRunB.lean ====
/-
  The body of the contrastive-loss kernel run at a key tile that is neither the first nor the last of its query tile (this tile's two masked row sums are added to the accumulators; nothing is stored into the output window): on whole buffers holding the four input blocks and the
  accumulators, the body runs to the end without a fault, hands the input buffers back as they were and leaves in
  each buffer it stored into the pieces named here, last store first.
-/
import proofs.«153847_j85177791414715_1_alg».proof.Proof.IdealRunA
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun0_B (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) :
    Σ' (L4 : List (View.Piece (Elt F) S512x1 .f32)), Σ' (LS0 : List (View.Piece (Elt F) S512x1 .f32)), { LS1 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨[], ?_, ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.IdealRunC.lean ====
/-
  The body of the contrastive-loss kernel run at the last key tile of a query tile (this tile's two masked row sums are added to the accumulators, then the loss of each query row, minus the logarithm of the same-label sum over the whole sum plus the small constant, is stored into the output window): on whole buffers holding the four input blocks and the
  accumulators, the body runs to the end without a fault, hands the input buffers back as they were and leaves in
  each buffer it stored into the pieces named here, last store first.
-/
import proofs.«153847_j85177791414715_1_alg».proof.Proof.IdealRunB
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun0_C (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) :
    Σ' (L4 : List (View.Piece (Elt F) S512x1 .f32)), Σ' (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8) K } := by
  refine ⟨?_, ?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.IdealLaunch.lean ====
/-
  The launch of the contrastive-loss program: the host operations that normalise the features, the kernel region,
  and the five host operations that average the row losses. The normalised features are handed to the kernel
  through TWO of its windows (once as the query tile, once as the key tile), so the one buffer behind them is held
  half by each; the other three arrays are held whole. From a body obligation for proof data with those shares the
  run follows: every array ends at what the proof data compute and every other buffer at what the host operations
  after the region leave.
-/
import proofs.«153847_j85177791414715_1_alg».proof.Proof.IdealShared
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers behind the five windows are four. -/
theorem arrRef_image : (Finset.univ.image (Pipeline.arrRef spec0)) = [main_v5, main_v6, main_v7, main_v8].toFinset := by decide

/-- The four buffers whole at the full share are the five windows' holdings: the features' buffer split in two. -/
theorem arrays_of_bufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs spec0 c W : sProp 𝕄) ⊢ dat.arrays G := by
  unfold Pipeline.arrBufs Dat.arrays
  rw [bigSep_eq_bigSepL_of_eq _ arrRef_image (by decide), bigSep_W0]
  have s0 : dat.share 0 = fullShare.left := (show dat.share 0 = dat.q 0 from rfl).trans hq0
  have s1 : dat.share 1 = fullShare.right := (show dat.share 1 = dat.q 1 from rfl).trans hq1
  have s2 : dat.share 2 = fullShare := (show dat.share 2 = dat.q 2 from rfl).trans hq2
  have s3 : dat.share 3 = fullShare := (show dat.share 3 = dat.q 3 from rfl).trans hq3
  have s4 : dat.share 4 = fullShare := rfl
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  rw [s0, s1, s2, s3, s4, e0]
  try rw [e1]
  rw [e2, e3, e4, hG 0, hG 1, hG 2, hG 3, hG 4]
  change (iprop((((c.tc : Thread nD τ).loc main_v5) ↦{fullShare} W main_v5) ∗ (((c.tc : Thread nD τ).loc main_v6) ↦{fullShare} W main_v6) ∗ (((c.tc : Thread nD τ).loc main_v7) ↦{fullShare} W main_v7) ∗ (((c.tc : Thread nD τ).loc main_v8) ↦{fullShare} W main_v8)) : sProp 𝕄) ⊢ _
  iintro ⟨H5, H6, H7, H8⟩
  ihave H5 := (pointsTo_share (PosShare.mem_left_op_right fullShare)).1 $$ H5
  icases H5 with ⟨H5a, H5b⟩
  isplitl [H5a]; · iexact H5a
  isplitl [H5b]; · iexact H5b
  isplitl [H6]; · iexact H6
  isplitl [H7]; · iexact H7
  iexact H8

/-- The buffers the five operations after the region touch: the row losses' buffer and the buffers that bypass the region. -/
def tailSet : Finset (DevRef τ sig) :=
  (({main_v8} : Finset (Ref sig .tc)) ∪ Pipeline.restRefsP sig Pipeline.Prefetch.none spec0).map ⟨Proc.devRef (sig := sig) .tc, Proc.devRef_injective _⟩

theorem mem_tailSet (r : Ref sig .tc) (h : r = main_v8 ∨ (r.isScoped = false ∧ ∀ w, (spec0 w).arr.view.ref ≠ r)) :
    Proc.devRef (τ := τ) .tc r ∈ tailSet := by
  classical
  unfold tailSet
  refine Finset.mem_map.mpr ⟨r, ?_, rfl⟩
  rcases h with rfl | ⟨hs, ha⟩
  · exact Finset.mem_union_left _ (Finset.mem_singleton_self _)
  · refine Finset.mem_union_right _ (Finset.mem_sdiff.mpr ⟨Pipeline.mem_restRefs_of r hs ha, ?_⟩)
    simp only [Finset.mem_image, Finset.mem_univ, true_and, not_exists]
    exact fun k => k.elim0

theorem tail_disj : Disjoint ({main_v8} : Finset (Ref sig .tc)) (Pipeline.restRefsP sig Pipeline.Prefetch.none spec0) := by
  classical
  rw [Finset.disjoint_singleton_left]
  intro h
  exact (Finset.mem_sdiff.mp (Finset.mem_sdiff.mp h).1).2 (Finset.mem_image.mpr ⟨4, Finset.mem_univ _, rfl⟩)

/-- That set held at a valuation: the row losses' buffer, and the bypassing buffers. -/
theorem held_tailSet (c : Dev nD) (Wv : Valuation τ sig (Elt F)) :
    (StableHlo.held (c.tc : Thread nD τ) tailSet Wv : sProp 𝕄)
      = iprop((((c.tc : Thread nD τ).loc main_v8) ↦{fullShare} Wv (Proc.devRef .tc main_v8))
          ∗ Pipeline.unscopedRestP Pipeline.Prefetch.none spec0 c (fun b => Wv (Proc.devRef .tc b))) := by
  classical
  unfold StableHlo.held tailSet Pipeline.unscopedRestP
  rw [bigSep_map, bigSep_union tail_disj, BI.bigSep_singleton]
  rfl

/-- Each of the five operations touches only buffers of that set. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl
  all_goals
    simp only [StableHlo.reshape_bufs, StableHlo.nullary_bufs, StableHlo.binary_bufs, Finset.insert_subset_iff, Finset.singleton_subset_iff]
    repeat' apply And.intro
    all_goals exact mem_tailSet _ (by decide)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The row losses' buffer is the fifth window's array and no other's: the valuation that puts the arrays at `A` reads `A 4` there. -/
theorem withArrays_v8 (c : Dev nD) (Vv : Valuation τ sig (Elt F)) (A : (w : Fin cfg0.W) → Buf (Elt F) ((spec0 w).arr.view.loc (c.tc : Thread nD τ))) :
    Pipeline.withArrays spec0 c Vv A (Proc.devRef .tc main_v8) = A 4 := by
  unfold Pipeline.withArrays
  have h : ∃ w', Proc.devRef .tc (Pipeline.arrRef spec0 w') = Proc.devRef (τ := τ) .tc main_v8 := ⟨4, rfl⟩
  rw [dif_pos h]
  suffices ∀ (w' : Fin 5) (e : Proc.devRef .tc (Pipeline.arrRef spec0 w') = Proc.devRef (τ := τ) .tc main_v8),
      cast (congrArg (fun b' : DevRef τ sig => b'.ty.Contents (Elt F)) e) (A w') = A 4 from this _ h.choose_spec
  intro w' e
  obtain rfl : w' = 4 := (by decide : ∀ w : Fin 5, Pipeline.arrRef spec0 w = main_v8 → w = 4) w' (Proc.devRef_injective _ e)
  rfl

/-- None of the five operations writes the row losses' buffer. -/
theorem tail_keeps_v8 : ∀ op ∈ ([hostOps1] : List (List (HloOp τ sig (Elt F)))).flatten, Proc.devRef .tc main_v8 ∉ op.writes := by
  intro op hop
  simp only [hostOps1, List.flatten_cons, List.flatten_nil, List.append_nil, List.mem_cons, List.mem_nil_iff, or_false] at hop
  rcases hop with rfl | rfl | rfl | rfl | rfl
  all_goals simp only [StableHlo.nullary_writes, StableHlo.binary_writes, StableHlo.reshape_writes, Finset.mem_singleton]; exact StableHlo.devRef_ne_of_ne (by decide)

set_option maxHeartbeats 1600000 in
set_option backward.isDefEq.respectTransparency.types false in
/-- THE OPERATIONS AFTER THE REGION: from the region's exit they run within the row losses' buffer and the bypassing
    buffers, and leave the arrays as they were and every bypassing buffer at what the five operations compute. -/
theorem tail_run (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N) ∗ Pipeline.unscopedRestP (Ix := Unit) (Name := ℕ) (U := UR sig nD τ) (Lvl := ℕ) Pipeline.Prefetch.none spec0 c (Pipeline.afterTail₀ cfgs dats 0 (V0 m) [hostOps1] c)) -∗ Q' ⟨⟩)
        ∗ boundary (c.tc : Thread nD τ) ∗ (dats 0 c).arrays ((dats 0 c).arrAt · cfg0.N) ∗ Pipeline.unscopedRestP (Ix := Unit) (Name := ℕ) (U := UR sig nD τ) (Lvl := ℕ) Pipeline.Prefetch.none spec0 c (V m c))
      ⊢ wp frame (wpE (Pipeline.defs (fun q => Cfg.toPCfg (Val := Elt F) (cfgs q)) defs₀) (Variants.lift Variants.none) (c.tc : Thread nD τ) none) Set.univ (Pipeline.chain [StableHlo.seq hostOps1]) Q' := by
  classical
  let A : (w : Fin cfg0.W) → Buf (Elt F) ((spec0 w).arr.view.loc (c.tc : Thread nD τ)) := fun w => (dats 0 c).arrAt w cfg0.N
  let Wv : Valuation τ sig (Elt F) := Pipeline.withArrays spec0 c (V0 m c) A
  have hrest : ∀ b ∈ Pipeline.restRefsP sig Pipeline.Prefetch.none spec0, Wv (Proc.devRef .tc b) = V m c b := fun b hb =>
    Pipeline.withArrays_of_ne spec0 c (V0 m c) A b fun w e => (Finset.mem_sdiff.mp (Finset.mem_sdiff.mp hb).1).2 (Finset.mem_image.mpr ⟨w, Finset.mem_univ _, e⟩)
  have hW8 : Wv (Proc.devRef .tc main_v8) = A 4 := withArrays_v8 c (V0 m c) A
  have hW : (StableHlo.held (c.tc : Thread nD τ) tailSet Wv : sProp 𝕄)
      = iprop((((c.tc : Thread nD τ).loc main_v8) ↦{fullShare} A 4) ∗ Pipeline.unscopedRestP Pipeline.Prefetch.none spec0 c (V m c)) := by
    have hR : (Pipeline.unscopedRestP Pipeline.Prefetch.none spec0 c (fun b => Wv (Proc.devRef .tc b)) : sProp 𝕄) = Pipeline.unscopedRestP Pipeline.Prefetch.none spec0 c (V m c) := by
      unfold Pipeline.unscopedRestP
      exact bigSep_congr fun b hb => by
        show (((c.tc : Thread nD τ).loc b) ↦{fullShare} Wv (Proc.devRef .tc b) : sProp 𝕄) = _
        rw [hrest b hb]
    rw [held_tailSet, hW8, hR]
  have hW' : (StableHlo.held (c.tc : Thread nD τ) tailSet (StableHlo.after ([hostOps1] : List (List (HloOp τ sig (Elt F)))).flatten Wv) : sProp 𝕄)
      = iprop((((c.tc : Thread nD τ).loc main_v8) ↦{fullShare} A 4) ∗ Pipeline.unscopedRestP Pipeline.Prefetch.none spec0 c (Pipeline.afterTail₀ cfgs dats 0 (V0 m) [hostOps1] c)) := by
    rw [held_tailSet, StableHlo.after_of_forall_not_mem _ _ tail_keeps_v8, hW8]
    rfl
  have e4 : ((cfg0.win 4).arr.view.loc (c.tc : Thread nD τ) ↦[(cfg0.win 4).arr.view.set]{(dats 0 c).share 4} (dats 0 c).arrAt 4 cfg0.N : sProp 𝕄)
      = (((c.tc : Thread nD τ).loc main_v8) ↦{fullShare} A 4) := by
    rw [(arr_whole0 4).set_eq_univ]; rfl
  have h := Pipeline.wp_seqs_then (fun q => Cfg.toPCfg (Val := Elt F) (cfgs q)) defs₀ Variants.none c tailSet [] [hostOps1] (K := Q') tail_sub tail_fresh Wv
  rw [hW, hW'] at h
  unfold Dat.arrays
  rw [bigSep_W0, e4]
  change _ ⊢ wp frame _ Set.univ (Pipeline.chain ((([hostOps1] : List (List (HloOp τ sig (Elt F)))).map StableHlo.seq) ++ [])) Q'
  iintro ⟨Hk, Hb, ⟨A0, A1, A2, A3, A4⟩, HR⟩
  iapply h $$ [Hb A4 HR]
  · isplitl [Hb]; · iexact Hb
    isplitl [A4]; · iexact A4
    iexact HR
  iintro Hb
  rw [Pipeline.chain_nil, wp_pure]
  imodintro
  iapply Hk
  icases Hb with ⟨-, H8, HR⟩
  isplitl [A0 A1 A2 A3 H8]
  · isplitl [A0]; · iexact A0
    isplitl [A1]; · iexact A1
    isplitl [A2]; · iexact A2
    isplitl [A3]; · iexact A3
    iexact H8
  iexact HR

/-- THE RUN, for any proof data of the pipeline whose two feature windows hold the two halves of the shared buffer. -/
theorem run_frame
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs c (dats 0 c) (hq0 c) (hq1 c) (hq2 c) (hq3 c) (V m c) _ (fun w => hA c w))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats c Q')
    (QY := fun c s => ∀ b ∈ Pipeline.restRefsP sig Pipeline.Prefetch.none spec0, s.mem ((c.tc : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Pipeline.afterTail₀ cfgs dats 0 (V0 m) [hostOps1] c) s')
      isplitl [HU] <;> iassumption)
    (hQ := fun s h c => ⟨(h c).1, Pipeline.rest_of_restP Pipeline.Prefetch.none spec0 (fun k => k.elim0) c (Pipeline.afterTail₀ cfgs dats 0 (V0 m) [hostOps1] c) s (fun k => k.elim0) (h c).2.1 (h c).2.2⟩)

end Cert.KernelIdeal.Hand

end
-- ==== Proof.IdealFrame.lean ====
/-
  The frame of the contrastive-loss program: what each of the three cases of the body leaves in the output window's
  buffer and in the two row accumulators, what they hold point by point over the grid (the accumulators are reset at
  the first key tile of a query tile, added to at every key tile, and the row losses are written at the last), the
  proof data of the pipeline with the normalised features' buffer held half by the query window and half by the key
  window, the body obligation at every point, and the run.
-/
import proofs.«153847_j85177791414715_1_alg».proof.Proof.IdealRunC
import proofs.«153847_j85177791414715_1_alg».proof.Proof.IdealLaunch
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the first key tile leaves in the output window's buffer: nothing is stored there, so a placeholder nothing consults. -/
def out0_A_4 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) : Vec F S512x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- The stores of the first key tile into the same-label accumulator cover it. -/
theorem scover0_A_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) (y : S512x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S512x1.size (by sl_kernel_rfl) y

/-- What the first key tile leaves in the same-label accumulator. -/
def sout0_A_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.1)

/-- The stores of the first key tile into the other-label accumulator cover it. -/
theorem scover0_A_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) (y : S512x1.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S512x1.size (by sl_kernel_rfl) y

/-- What the first key tile leaves in the other-label accumulator. -/
def sout0_A_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) : Vec F S512x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.2.1)

/-- What a middle key tile leaves in the output window's buffer: nothing is stored there, so a placeholder nothing consults. -/
def out0_B_4 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)

/-- The stores of a middle key tile into the same-label accumulator cover it. -/
theorem scover0_B_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S512x1.size (by sl_kernel_rfl) y

/-- What a middle key tile leaves in the same-label accumulator. -/
def sout0_B_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)

/-- The stores of a middle key tile into the other-label accumulator cover it. -/
theorem scover0_B_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S512x1.size (by sl_kernel_rfl) y

/-- What a middle key tile leaves in the other-label accumulator. -/
def sout0_B_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)

/-- What the last key tile leaves in the output window's buffer: the row losses, its one store read back. -/
def out0_C_4 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-- The stores of the last key tile into the same-label accumulator cover it. -/
theorem scover0_C_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S512x1.size (by sl_kernel_rfl) y

/-- What the last key tile leaves in the same-label accumulator. -/
def sout0_C_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- The stores of the last key tile into the other-label accumulator cover it. -/
theorem scover0_C_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S512x1.size (by sl_kernel_rfl) y

/-- What the last key tile leaves in the other-label accumulator. -/
def sout0_C_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

/-- The one store of the last key tile into the output window covers its block. -/
theorem cover0_C_4 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S512x1.size (by sl_kernel_rfl) y

/-! ## Point by point -/

/-- What the output window's buffer and the two accumulators hold after the body at position `n`: the case the position
    is in (first, middle or last key tile of its query tile), run on the point's blocks and, but at a first key tile,
    on what the point before left in the accumulators. -/
def outsAt0 (c : Dev nD) : (n : ℕ) → n < cfg0.N → Vec F S512x1 .f32 × Vec F S512x1 .f32 × Vec F S512x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point both accumulators at anything; afterwards each at
    what the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; the features' buffer held half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms of the two conditions say which
    case the point is in; the invariant hands the body the accumulators at what the point before left (at anything at
    the first point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _)

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

/-! ## The run -/

/-- Every weakly fair execution of the program from a memory with zero counters terminates without a fault, every array
    of the pipeline ending at what the proof data compute and every other buffer at what the operations after the
    region leave. -/
theorem run_main : θ_run defs (onTc (τ := τ) (main (F := F))) (s₀ m ρ) (Pipeline.FramePost cfgs (dats m) 0 (Pipeline.afterTail₀ cfgs (dats m) 0 (V0 m) [hostOps1])) :=
  run_frame m ρ (dats m) (fun c => (body_obligation m c).loose) (fun _ => rfl) (fun _ => rfl) (fun _ => rfl) (fun _ => rfl)
    (fun _ _ => rfl) (A_eq m) (hin m) (hout m)

/-- No operation after the region writes the features or the labels: they end as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- THE FRAME: the program runs to the end without a fault and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (W_main_arg0 m c),
     ((h c).2 main_arg1 (Pipeline.mem_restRefs_of main_arg1 rfl (by decide))).trans (W_main_arg1 m c)⟩) (run_main m ρ)

end Cert.KernelIdeal.Hand

end
-- ==== Proof.IdealPieces.lean ====
/-
  What each case of the body leaves in the two row accumulators and in the output buffer, as the body's arithmetic.

  The body's run names the pieces it stored; each accumulator is stored whole, so reading the stores back gives the
  last store's payload, whose loads read whole buffers (the input blocks, or the accumulator as it was handed over, or —
  at a first key tile — the zeros just stored into it). At the last key tile the output's one store is the loss of the
  two accumulators as this point has just left them.
-/
import proofs.«153847_j85177791414715_1_alg».proof.Proof.IdealFrame
import Idealize.ShloMosaic.Lib.Pipeline.Value
import Idealize.ShloMosaic.Lib.Tactic
set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

variable {F : FTy → Type} [FloatOps F] [Named F]

/-- Every access of the body starts at the origin of its buffer. -/
theorem hz2 : (![0, 0] : Fin 2 → Nat) = fun _ => 0 := funext fun a => by fin_cases a <;> rfl

/-! ## The first key tile -/

/-- The same-label accumulator: zeros are stored, read back, and this tile's same-label row sums added. -/
theorem sout_A_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) :
    sout0_A_0 c i arg2 harg2 arg3 harg3 arg4 harg4 arg5 harg5 arg6 harg6 arg7 harg7 arg8 harg8 hc0 hc1 x0 x1 x2 x3 = k0_pay7 x0 x1 x2 x3 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread,
    harg7.read_unread, harg8.read_unread, View.ld_unit_zero (S := S512x128) hz2, View.ld_unit_zero (S := S2048x128) hz2,
    View.ld_unit_zero (S := S512x1) hz2, View.ld_unit_zero (S := S1x2048) hz2, shapeCast_self]

/-- The other-label accumulator likewise. -/
theorem sout_A_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x128 .bf16) (x1 : Vec F S2048x128 .bf16) (x2 : Vec F S512x1 .i32) (x3 : Vec F S1x2048 .i32) :
    sout0_A_1 c i arg2 harg2 arg3 harg3 arg4 harg4 arg5 harg5 arg6 harg6 arg7 harg7 arg8 harg8 hc0 hc1 x0 x1 x2 x3 = k0_pay1 (k0_pay8 x0 x1 x2 x3 (k0_pay4 (F := F))) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread,
    harg7.read_unread, harg8.read_unread, View.ld_unit_zero (S := S512x128) hz2, View.ld_unit_zero (S := S2048x128) hz2,
    View.ld_unit_zero (S := S512x1) hz2, View.ld_unit_zero (S := S1x2048) hz2, shapeCast_self]

/-! ## A middle key tile -/

/-- The same-label accumulator: what it held plus this tile's same-label row sums. -/
theorem sout_B_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 xs1 : Vec F S512x1 .f32) :
    sout0_B_0 c i arg2 harg2 arg3 harg3 arg4 harg4 arg5 harg5 arg6 harg6 arg7 harg7 arg8 harg8 hc0 hc1 x0 x1 x2 x3 xs0 xs1 = k0_pay7 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  rw [View.canon_unit_zero hz2]
  simp only [View.readAt_eq_ld, harg2.read_unread, harg3.read_unread, harg4.read_unread, harg5.read_unread,
    harg7.read_unread, harg8.read_unread, View.ld_unit_zero (S := S512x128) hz2, View.ld_unit_zero (S := S2048x128) hz2,
    View.ld_unit_zero (S := S512x1) hz2, View.ld_unit_zero (S := S1x2048) hz2, shapeCast_self]

/-- The other-label accumulator likewise. -/
theorem sout_B_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x128 .bf16) (x1 : Vec F S2048x128 .bf16) (x2 : Vec F S512x1 .i32) (x3 : Vec F S1x2048 .i32) (xs0 xs1 : Vec F S512x1 .f32) :
    sout0_B_1 c i arg2 harg2 arg3 harg3 arg4 harg4 arg5 harg5 arg6 harg6 arg7 harg7 arg8 harg8 hc0 hc1 x0 x1 x2 x3 xs0 xs1 = k0_pay1 (k0_pay8 x0 x1 x2 x3 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread,
    harg7.read_unread, harg8.read_unread, View.ld_unit_zero (S := S512x128) hz2, View.ld_unit_zero (S := S2048x128) hz2,
    View.ld_unit_zero (S := S512x1) hz2, View.ld_unit_zero (S := S1x2048) hz2, shapeCast_self]

/-! ## The last key tile -/

/-- The same-label accumulator, as at a middle tile. -/
theorem sout_C_0 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 xs1 : Vec F S512x1 .f32) :
    sout0_C_0 c i arg2 harg2 arg3 harg3 arg4 harg4 arg5 harg5 arg6 harg6 arg7 harg7 arg8 harg8 hc0 hc1 x0 x1 x2 x3 xs0 xs1 = k0_pay7 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread,
    harg7.read_unread, harg8.read_unread, View.ld_unit_zero (S := S512x128) hz2, View.ld_unit_zero (S := S2048x128) hz2,
    View.ld_unit_zero (S := S512x1) hz2, View.ld_unit_zero (S := S1x2048) hz2, shapeCast_self]

/-- The other-label accumulator, as at a middle tile. -/
theorem sout_C_1 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 xs1 : Vec F S512x1 .f32) :
    sout0_C_1 c i arg2 harg2 arg3 harg3 arg4 harg4 arg5 harg5 arg6 harg6 arg7 harg7 arg8 harg8 hc0 hc1 x0 x1 x2 x3 xs0 xs1 = k0_pay1 (k0_pay8 x0 x1 x2 x3 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread,
    harg7.read_unread, harg8.read_unread, View.ld_unit_zero (S := S512x128) hz2, View.ld_unit_zero (S := S2048x128) hz2,
    View.ld_unit_zero (S := S512x1) hz2, View.ld_unit_zero (S := S1x2048) hz2, shapeCast_self]

/-- The output buffer: the loss of the two accumulators as this point has just left them. -/
theorem out_C_4 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x128 .bf16) (x1 : Vec F S2048x128 .bf16) (x2 : Vec F S512x1 .i32) (x3 : Vec F S1x2048 .i32) (xs0 xs1 : Vec F S512x1 .f32) :
    out0_C_4 c i arg2 harg2 arg3 harg3 arg4 harg4 arg5 harg5 arg6 harg6 arg7 harg7 arg8 harg8 hc0 hc1 x0 x1 x2 x3 xs0 xs1 = k0_pay2 (k0_pay7 x0 x1 x2 x3 xs0) (k0_pay1 (k0_pay8 x0 x1 x2 x3 xs1)) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread,
    harg7.read_unread, harg8.read_unread, View.ld_unit_zero (S := S512x128) hz2, View.ld_unit_zero (S := S2048x128) hz2,
    View.ld_unit_zero (S := S512x1) hz2, View.ld_unit_zero (S := S1x2048) hz2, shapeCast_self]
  rw [View.readCov_unit_zero (S := S512x1) _ hz2, View.readCov_unit_zero (S := S512x1) _ hz2]

end Cert.KernelIdeal.Hand

end
-- ==== Proof.Spec.lean ====
/-
  The contrastive loss as ONE function of the normalised features and the labels, on the extended reals.

  For features `f : [16384, 128]` and labels `l : [16384]`:
    sim i j   = ∑ d, f(i,d) · f(j,d)                       the Gram matrix of the rows,
    pos i     = ∑ j, [l i = l j] · sim i j · κ              the scaled similarities over the rows with i's label,
    neg i     = ∑ j, [l i ≠ l j] · sim i j · κ              and over the rows with another label,
    rowLoss i = 0 − log (pos i / (pos i + neg i + e)),
    total     = (0 + ∑ i, rowLoss i) / 16384.
  `κ` is the inverse temperature and `e` the guard inside the logarithm, both parameters. The logarithm and the
  quotients are the extended reals' (`Ideal.log`, `Ideal.div`), so the definition has a value at every input and no
  finiteness hypothesis appears. Below the definition, the re-indexings of a sum over the 16384 rows (or columns) by
  blocks: 8 tiles of 2048 columns, 32 blocks of 512 rows; and a sum over a rank-1 index set as the sum over its
  coordinate.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Contrast

open Idealize.ShloMosaic Idealize.ShloMosaic.ValueIdx

/-- The normalised features: one extended real per (row, coordinate). -/
abbrev Feat : Type := (⟨2, ![16384, 128]⟩ : Shape).Idx → EReal
/-- The labels: one 32-bit word per row. -/
abbrev Lab : Type := (⟨1, ![16384]⟩ : Shape).Idx → BitVec 32

/-- The inner product of rows `i` and `j`. -/
def sim (f : Feat) (i j : Fin 16384) : EReal := ∑ d : Fin 128, f (ix2 i d) * f (ix2 j d)

/-- The scaled similarities of row `i` summed over the rows carrying `i`'s label. -/
def pos (κ : EReal) (f : Feat) (l : Lab) (i : Fin 16384) : EReal :=
  ∑ j : Fin 16384, if l (ix1 i) = l (ix1 j) then sim f i j * κ else 0

/-- The scaled similarities of row `i` summed over the rows carrying another label. -/
def neg (κ : EReal) (f : Feat) (l : Lab) (i : Fin 16384) : EReal :=
  ∑ j : Fin 16384, if l (ix1 i) = l (ix1 j) then 0 else sim f i j * κ

/-- Row `i`'s loss: minus the logarithm of the positive share. -/
def rowLoss (κ e : EReal) (f : Feat) (l : Lab) (i : Fin 16384) : EReal :=
  0 - Ideal.log (Ideal.div (pos κ f l i) (pos κ f l i + neg κ f l i + e))

/-- The mean of the rows' losses; the divisor is the extended real the f32 word of 16384.0 denotes. -/
def total (κ e : EReal) (f : Feat) (l : Lab) : EReal :=
  Ideal.div (0 + ∑ i : Fin 16384, rowLoss κ e f l i) (Ideal.ofBits .f32 0x46800000#32)

/-! ## Sums by blocks -/

/-- A sum over `m · n` positions is the sum over `m` blocks of the sums over the `n` positions of a block. -/
theorem sum_blocks {M : Type*} [AddCommMonoid M] (m n : Nat) (g : Fin (m * n) → M) :
    ∑ j : Fin (m * n), g j = ∑ b : Fin m, ∑ k : Fin n, g (finProdFinEquiv (b, k)) := by
  rw [← Equiv.sum_comp finProdFinEquiv g, Fintype.sum_prod_type]

/-- The 16384 columns as 8 tiles of 2048. -/
theorem sum_tiles {M : Type*} [AddCommMonoid M] (g : Fin 16384 → M) :
    ∑ j : Fin 16384, g j
      = ∑ b : Fin 8, ∑ k : Fin 2048, g ⟨2048 * b.val + k.val, by have := b.isLt; have := k.isLt; omega⟩ := by
  refine (sum_blocks 8 2048 g).trans ?_
  refine Finset.sum_congr rfl fun b _ => Finset.sum_congr rfl fun k _ => congrArg g (Fin.ext ?_)
  show k.val + 2048 * b.val = 2048 * b.val + k.val
  exact Nat.add_comm _ _

/-- The 16384 rows as 32 blocks of 512. -/
theorem sum_rows {M : Type*} [AddCommMonoid M] (g : Fin 16384 → M) :
    ∑ i : Fin 16384, g i
      = ∑ b : Fin 32, ∑ r : Fin 512, g ⟨512 * b.val + r.val, by have := b.isLt; have := r.isLt; omega⟩ := by
  refine (sum_blocks 32 512 g).trans ?_
  refine Finset.sum_congr rfl fun b _ => Finset.sum_congr rfl fun r _ => congrArg g (Fin.ext ?_)
  show r.val + 512 * b.val = 512 * b.val + r.val
  exact Nat.add_comm _ _

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (g : (⟨1, ![n]⟩ : Shape).Idx → M) :
    ∑ i, g i = ∑ a : Fin n, g (ix1 a) :=
  (Equiv.sum_comp (idxEquiv1 (n := n)).symm g).symm

end Cert.Contrast

end
-- ==== Proof.LibMatmulNT.lean ====
/-
  A matrix product whose two operands are both contracted along their second axis, accumulated into zero, read at
  one entry.

  Over the extended reals the product of an A by K matrix l with a B by K matrix r, each row of r contracted against
  each row of l, has at entry (p, q) the sum over k of l (p, k) r (q, k): the accumulator is zero, and the contraction
  index of a product with one contracted axis is that axis' coordinate. In particular entry (p, q) reads r only in its
  row q. The lemma is stated for any dimension record whose operand indices are (row, contraction) on the left and
  (column, contraction) on the right, which the four coordinate hypotheses say.
-/
import Idealize.ShloMosaic.PureOps.Ideal.Laws
import Idealize.ShloMosaic.Lib.ValueIdx

noncomputable section

namespace Cert.LibMatmulNT

open Idealize.ShloMosaic Idealize.ShloMosaic.ValueIdx

/-- Entry (p, q) of a product of an A by K with a B by K matrix, contracted along K into the zero accumulator, is the
    sum over K of the products of row p of the left with row q of the right. -/
theorem matmul_zero_nt_ix2 {A K B : ℕ} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (i (1 : Fin 2)).val)
    (hr1 : ∀ i q, (d.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.LibMatmulNT

end
-- ==== Proof.LibRowReduce.lean ====
/-
  Reductions along the last axis, read at a row.

  Over the extended reals a maximum reduction of an A × B matrix along its second axis is, at row p, the fold of max
  from the accumulator's value over the B entries of row p, and an add reduction is the sum of those entries; a
  host-side reduction of an N × A × B array along its last axis with a commutative associative body is, at (n, p),
  the fold from the initial value over the B entries (n, p, ·). The statements name each source index by its
  coordinates, so that a proof can rewrite the folded function entry by entry.
-/
import Idealize.ShloMosaic.PureOps.Ideal.Laws
import Idealize.ShloMosaic.Lib.ValueIdx

noncomputable section

namespace Cert.LibRowReduce

open Idealize.ShloMosaic Idealize.ShloMosaic.ValueIdx

/-- The source index over row p with last coordinate k is (p, k). -/
theorem lift_rows {A B : ℕ} (h : (⟨2, ![A, B]⟩ : Shape).Reduces [1] ⟨1, ![A]⟩) (p : Fin A) (k : Fin B) :
    h.lift (ix1 p) k = ix2 p k := by
  funext a; apply Fin.ext
  match a with
  | ⟨0, _⟩ => rfl
  | ⟨1, _⟩ => rfl

/-- A maximum reduction along the second axis, at row p: the fold of max over that row's entries. -/
theorem multiReduction_maximumf_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.maximumf.neutral .f32 hφ)
    (p : Fin A) :
    multiReduction .maximumf [1] ⟨1, ![A]⟩ src acc h hφ hacc (ix1 p)
      = (Finset.univ : Finset (Fin B)).fold max (Ideal.ofBits .f32 acc) (fun k => src (ix2 p k)) := by
  refine (Ideal.multiReduction_maximumf_single src acc h hφ hacc (ix1 p)).trans ?_
  show (Finset.univ : Finset (Fin B)).fold max (Ideal.ofBits .f32 acc) (fun k => src (h.lift (ix1 p) k)) = _
  exact congrArg (fun f => (Finset.univ : Finset (Fin B)).fold max (Ideal.ofBits .f32 acc) f)
    (funext fun k => congrArg src (lift_rows h p k))

/-- An add reduction along the second axis, at row p: the sum of that row's entries. -/
theorem multiReduction_add_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin B, src (ix2 p k) := by
  refine (Ideal.multiReduction_add_single src acc h hφ hacc (ix1 p)).trans ?_
  show ∑ k : Fin B, src (h.lift (ix1 p) k) = _
  exact Finset.sum_congr rfl fun k _ => congrArg src (lift_rows h p k)

/-- The source index over (n, p) with last coordinate k is (n, p, k). -/
theorem lift_last3 {N A B : ℕ} (h : (⟨3, ![N, A, B]⟩ : Shape).Reduces [2] ⟨2, ![N, A]⟩) (n : Fin N) (p : Fin A) (k : Fin B) :
    h.lift (ix2 n p) k = ix3 n p k := by
  funext a; apply Fin.ext
  match a with
  | ⟨0, _⟩ => rfl
  | ⟨1, _⟩ => rfl
  | ⟨2, _⟩ => rfl

/-- A host reduction along the last of three axes with a commutative associative body, at (n, p): the fold from the
    initial value over the entries (n, p, ·). -/
theorem hostReduce_last3 {α : Type} {N A B : ℕ} {u : Shape} (f : α → α → α) [Std.Commutative f] [Std.Associative f]
    (x : (⟨3, ![N, A, B]⟩ : Shape).Idx → α) (init : u.Idx → α)
    (h' : (⟨3, ![N, A, B]⟩ : Shape).ReducesTo [2] ⟨2, ![N, A]⟩) (h : (⟨3, ![N, A, B]⟩ : Shape).Reduces [2] ⟨2, ![N, A]⟩)
    (hu : 0 < u.numel) (n : Fin N) (p : Fin A) :
    Host.reduce f x init h' hu (ix2 n p)
      = (Finset.univ : Finset (Fin B)).fold f (init (Shape.Idx.first hu)) (fun k => x (ix3 n p k)) := by
  refine (Host.reduce_eq_fold_single f x init h' h hu (ix2 n p)).trans ?_
  show (Finset.univ : Finset (Fin B)).fold f (init (Shape.Idx.first hu)) (fun k => x (h.lift (ix2 n p) k)) = _
  exact congrArg (fun g => (Finset.univ : Finset (Fin B)).fold f (init (Shape.Idx.first hu)) g)
    (funext fun k => congrArg x (lift_last3 h n p k))

/-- The fold of max from b is at least b, so taking the maximum with b again changes nothing. -/
theorem max_fold_max_self {ι : Type} (s : Finset ι) (b : EReal) (g : ι → EReal) :
    max b (s.fold max b g) = s.fold max b g :=
  max_eq_right ((Finset.le_fold_max (s := s) (f := g) (b := b) (c := b)).2 (Or.inl le_rfl))

end Cert.LibRowReduce

end
-- ==== Proof.IdealPayload.lean ====
/-
  The kernel body's arithmetic, read at one entry, on the extended reals.

  A grid point holds a tile `q` of 512 rows and a tile `k` of 2048 rows of the normalised features, the 512 labels
  of the first and the 2048 labels of the second. Its arithmetic is: the 512 × 2048 block of inner products
  `∑ d, q(r,d) · k(c,d)` (a product contracting the second axis of both operands, into a zero accumulator) times the
  inverse temperature `κ`; the block of label equalities; the two row sums of the scaled block — over the equal-label
  columns and over the others, a select against `0` followed by a sum along the columns — added to the running sums;
  and, at the last key tile, `0 − log (pos / (pos + neg + e))`. Each is stated here at explicit coordinates.
-/
import proofs.«153847_j85177791414715_1_alg».proof.Proof.Gen.KernelIdeal.Skeleton
import proofs.«153847_j85177791414715_1_alg».proof.Proof.Spec
import proofs.«153847_j85177791414715_1_alg».proof.Proof.LibMatmulNT
import proofs.«153847_j85177791414715_1_alg».proof.Proof.LibRowReduce
import Idealize.ShloMosaic.PureOps.Ideal.Laws
import Idealize.ShloMosaic.PureOps.IdealRules
import Idealize.ShloMosaic.Lib.Pipeline.Value
import Idealize.ShloMosaic.Lib.ValueIdx
import Idealize.ShloMosaic.Lib.ValueLayout

noncomputable section

open scoped BigOperators

namespace Cert.KernelIdeal.PayValue

open Cert.KernelIdeal Cert.KernelIdeal.Gen Idealize.ShloMosaic Idealize.ShloMosaic.ValueIdx

/-- The inverse temperature the kernel's constant is named. -/
abbrev κ' : EReal := ((134217728 / 13421773 : ℝ) : EReal)
/-- The guard inside the logarithm, kept as its word. -/
abbrev ε : EReal := Ideal.ofBits .f32 0x322BCC77#32

/-- The named constant denotes the inverse temperature. -/
theorem inv_temp : Named.named (F := Ideal) Cert.KernelIdeal.κ "inv_temp" (φ := .f32) 0x41200000#32 = κ' :=
  IdealRules.named_const.ideal_named_scalar _ _ _ _ rfl

/-! ## The scaled block of inner products -/

/-- The dimension record contracts axis 1 of both operands: its operand indices are (row, contraction) and
    (column, contraction). -/
theorem dot_l0 (i : S512x2048.Idx) (q : dot_S512x128_S2048x128_S512x2048_1_1_0_0_n_n.contr.Idx) :
    (dot_S512x128_S2048x128_S512x2048_1_1_0_0_n_n.lhsIdx i q (0 : Fin 2)).val = (i (0 : Fin 2)).val := by
  unfold DotDims.lhsIdx
  rw [dif_neg (show ¬(0 : Fin S512x128.rank) ∈ dot_S512x128_S2048x128_S512x2048_1_1_0_0_n_n.lhsBatch by decide),
    dif_pos (show (0 : Fin S512x128.rank) ∈ dot_S512x128_S2048x128_S512x2048_1_1_0_0_n_n.lhsNonContracting by decide)]
  rfl
theorem dot_l1 (i : S512x2048.Idx) (q : dot_S512x128_S2048x128_S512x2048_1_1_0_0_n_n.contr.Idx) :
    (dot_S512x128_S2048x128_S512x2048_1_1_0_0_n_n.lhsIdx i q (1 : Fin 2)).val = (q ⟨0, by decide⟩).val :=
  dot_S512x128_S2048x128_S512x2048_1_1_0_0_n_n.lhsIdx_val_of_single rfl i q
theorem dot_r0 (i : S512x2048.Idx) (q : dot_S512x128_S2048x128_S512x2048_1_1_0_0_n_n.contr.Idx) :
    (dot_S512x128_S2048x128_S512x2048_1_1_0_0_n_n.rhsIdx i q (0 : Fin 2)).val = (i (1 : Fin 2)).val := by
  unfold DotDims.rhsIdx
  rw [dif_neg (show ¬(0 : Fin S2048x128.rank) ∈ dot_S512x128_S2048x128_S512x2048_1_1_0_0_n_n.rhsBatch by decide),
    dif_pos (show (0 : Fin S2048x128.rank) ∈ dot_S512x128_S2048x128_S512x2048_1_1_0_0_n_n.rhsNonContracting by decide)]
  rfl
theorem dot_r1 (i : S512x2048.Idx) (q : dot_S512x128_S2048x128_S512x2048_1_1_0_0_n_n.contr.Idx) :
    (dot_S512x128_S2048x128_S512x2048_1_1_0_0_n_n.rhsIdx i q (1 : Fin 2)).val = (q ⟨0, by decide⟩).val :=
  dot_S512x128_S2048x128_S512x2048_1_1_0_0_n_n.rhsIdx_val_of_single rfl i q

/-- Entry `(r, k)` of the scaled block: the inner product of row `r` of the query tile and row `k` of the key tile,
    times `κ`. -/
theorem pay5_apply (x0 : Vec Ideal S512x128 .bf16) (x1 : Vec Ideal S2048x128 .bf16) (r : Fin 512) (k : Fin 2048) :
    k0_pay5 (F := Ideal) x0 x1 (ix2 r k) = (∑ d : Fin 128, x0 (ix2 r d) * x1 (ix2 k d)) * κ' := by
  unfold k0_pay5
  rw [shapeCast_self, shapeCast_self]
  show FloatOps.matmul dot_S512x128_S2048x128_S512x2048_1_1_0_0_n_n none x0 x1
      (constant (F := Ideal) S512x2048 .f32 0x00000000#32) (ix2 r k)
    * Named.named (F := Ideal) Cert.KernelIdeal.κ "inv_temp" (φ := .f32) 0x41200000#32 = _
  rw [inv_temp]
  exact congrArg (· * κ') (Cert.LibMatmulNT.matmul_zero_nt_ix2 dot_S512x128_S2048x128_S512x2048_1_1_0_0_n_n rfl rfl
    dot_l0 dot_l1 dot_r0 dot_r1 none x0 x1 r k)

/-! ## The block of label equalities -/

/-- Entry `(r, k)` of the mask: are the label of query row `r` and the label of key row `k` one word. -/
theorem pay6_apply (x2 : Vec Ideal S512x1 .i32) (x3 : Vec Ideal S1x2048 .i32) (r : Fin 512) (k : Fin 2048) :
    k0_pay6 (F := Ideal) x2 x3 (ix2 r k) = IntOp.cmpi .eq (x2 (ix2 r (0 : Fin 1))) (x3 (ix2 (0 : Fin 1) k)) := by
  unfold k0_pay6
  rw [shapeCast_self, shapeCast_self]
  show IntOp.cmpi .eq (broadcastTo S512x2048 x2 broadcasts_S512x1_S512x2048 (ix2 r k))
      (broadcastTo S512x2048 x3 broadcasts_S1x2048_S512x2048 (ix2 r k)) = _
  have e2 : broadcastTo S512x2048 x2 broadcasts_S512x1_S512x2048 (ix2 r k) = x2 (ix2 r (0 : Fin 1)) :=
    broadcastTo_apply x2 broadcasts_S512x1_S512x2048 (ix2 r k) (ix2 r (0 : Fin 1)) fun ax => by
      match ax with
      | ⟨0, _⟩ => rfl
      | ⟨1, _⟩ => rfl
  have e3 : broadcastTo S512x2048 x3 broadcasts_S1x2048_S512x2048 (ix2 r k) = x3 (ix2 (0 : Fin 1) k) :=
    broadcastTo_1b_ab_apply x3 broadcasts_S1x2048_S512x2048 r k
  rw [e2, e3]

/-- A select on a compared pair of words is the `if` on their equality. -/
theorem select_cmpi_eq {α : Type} (a b : BitVec 32) (A B : α) :
    Scalar.select (IntOp.cmpi .eq a b) A B = if a = b then A else B := by
  by_cases h : a = b
  · have e : IntOp.cmpi .eq a b = 1#1 := by
      show BitVec.ofBool (a == b) = 1#1
      rw [beq_iff_eq.mpr h]; rfl
    rw [if_pos h, e]; exact select_one A B
  · have e : IntOp.cmpi .eq a b = 0#1 := by
      show BitVec.ofBool (a == b) = 0#1
      rw [beq_eq_false_iff_ne.mpr h]; rfl
    rw [if_neg h, e]; exact select_zero A B

/-! ## The row sums -/

/-- A column vector's reshape from `[512]` reads the vector at the row. -/
theorem col_apply (v : FVec Ideal S512 .f32) (r : Fin 512) :
    shapeCast S512x1 v shapeCasts_S512_S512x1 (ix2 r (0 : Fin 1)) = v (ix1 r) :=
  shapeCast_apply v shapeCasts_S512_S512x1 (ix2 r (0 : Fin 1)) (ix1 r) (by
    rw [Shape.rowMajor_val_one, Shape.rowMajor_val_two]
    show r.val = r.val * 1 + 0
    omega)

/-- The positive running sum after this grid point, at row `r`: what it held plus the scaled inner products of
    the key rows carrying row `r`'s label. -/
theorem pay7_apply (x0 : Vec Ideal S512x128 .bf16) (x1 : Vec Ideal S2048x128 .bf16) (x2 : Vec Ideal S512x1 .i32)
    (x3 : Vec Ideal S1x2048 .i32) (acc : Vec Ideal S512x1 .f32) (r : Fin 512) :
    k0_pay7 (F := Ideal) x0 x1 x2 x3 acc (ix2 r (0 : Fin 1))
      = acc (ix2 r (0 : Fin 1)) + ∑ k : Fin 2048,
          (if x2 (ix2 r (0 : Fin 1)) = x3 (ix2 (0 : Fin 1) k)
            then (∑ d : Fin 128, x0 (ix2 r d) * x1 (ix2 k d)) * κ' else 0) := by
  unfold k0_pay7
  dsimp only
  rw [shapeCast_self]
  show acc (ix2 r (0 : Fin 1)) + shapeCast S512x1 _ shapeCasts_S512_S512x1 (ix2 r (0 : Fin 1)) = _
  rw [col_apply]
  refine congrArg (acc (ix2 r (0 : Fin 1)) + ·) ?_
  refine (Cert.LibRowReduce.multiReduction_add_rows _ 0x00000000#32 reduces_S512x2048_S512 (.inl rfl) rfl r).trans ?_
  refine Finset.sum_congr rfl fun k _ => ?_
  rw [select_apply, pay6_apply, pay5_apply, select_cmpi_eq, broadcast_apply]
  show (if _ then _ else Ideal.ofBits .f32 0x00000000#32) = _
  rw [Ideal.ofBits_zero_f32]

/-- The negative running sum after this grid point, at row `r`: what it held plus the scaled inner products of
    the key rows carrying another label. -/
theorem pay8_apply (x0 : Vec Ideal S512x128 .bf16) (x1 : Vec Ideal S2048x128 .bf16) (x2 : Vec Ideal S512x1 .i32)
    (x3 : Vec Ideal S1x2048 .i32) (acc : Vec Ideal S512x1 .f32) (r : Fin 512) :
    k0_pay8 (F := Ideal) x0 x1 x2 x3 acc (ix2 r (0 : Fin 1))
      = acc (ix2 r (0 : Fin 1)) + ∑ k : Fin 2048,
          (if x2 (ix2 r (0 : Fin 1)) = x3 (ix2 (0 : Fin 1) k)
            then 0 else (∑ d : Fin 128, x0 (ix2 r d) * x1 (ix2 k d)) * κ') := by
  unfold k0_pay8
  dsimp only
  show acc (ix2 r (0 : Fin 1)) + shapeCast S512x1 _ shapeCasts_S512_S512x1 (ix2 r (0 : Fin 1)) = _
  rw [col_apply]
  refine congrArg (acc (ix2 r (0 : Fin 1)) + ·) ?_
  refine (Cert.LibRowReduce.multiReduction_add_rows _ 0x00000000#32 reduces_S512x2048_S512 (.inl rfl) rfl r).trans ?_
  refine Finset.sum_congr rfl fun k _ => ?_
  rw [select_apply, pay6_apply, pay5_apply, select_cmpi_eq, broadcast_apply]
  show (if _ then Ideal.ofBits .f32 0x00000000#32 else _) = _
  rw [Ideal.ofBits_zero_f32]

/-! ## The loss of a row, the zeroed sums, the carried sum -/

/-- At the last key tile: `0 − log (pos / (pos + neg + e))` at row `r`. -/
theorem pay2_apply (p n : Vec Ideal S512x1 .f32) (r : Fin 512) :
    k0_pay2 (F := Ideal) p n (ix2 r (0 : Fin 1))
      = 0 - Ideal.log (Ideal.div (p (ix2 r (0 : Fin 1))) (p (ix2 r (0 : Fin 1)) + n (ix2 r (0 : Fin 1)) + ε)) := by
  unfold k0_pay2
  show Ideal.ofBits .f32 0x00000000#32 - Ideal.log (Ideal.div (p (ix2 r (0 : Fin 1)))
      (p (ix2 r (0 : Fin 1)) + n (ix2 r (0 : Fin 1)) + Ideal.ofBits .f32 0x322BCC77#32)) = _
  rw [Ideal.ofBits_zero_f32]

/-- At the first key tile the positive sum is reset to zero … -/
theorem pay3_apply (r : Fin 512) : k0_pay3 (F := Ideal) (ix2 r (0 : Fin 1)) = 0 := by
  unfold k0_pay3
  rw [shapeCast_self]
  exact Ideal.ofBits_zero_f32

/-- … and so is the negative sum. -/
theorem pay4_apply (r : Fin 512) : k0_pay4 (F := Ideal) (ix2 r (0 : Fin 1)) = 0 := by
  unfold k0_pay4
  rw [shapeCast_self]
  exact Ideal.ofBits_zero_f32

/-- The negative sum is stored as it was computed (a reshape to its own shape). -/
theorem pay1_apply (v : FVec Ideal S512x1 .f32) : k0_pay1 (F := Ideal) v = v := by
  unfold k0_pay1
  exact shapeCast_self v shapeCasts_S512x1_S512x1

end Cert.KernelIdeal.PayValue

end
-- ==== Proof.Accum.lean ====
/-
  The row sums accumulated tile by tile.

  The kernel visits the 8 key tiles of a query row in order, resets its two running sums to zero at the first and
  adds each tile's partial sum. `accum g n` is that running sum after tile `n` when tile `b` contributes `g b`;
  it is `∑ b ≤ n, g b`. With `g` the sum over a tile's 2048 columns of the scaled similarities to the columns
  carrying the row's label (`tilePos`), or another label (`tileNeg`), the sum after the eighth tile is the
  specification's `pos`, or `neg`: the 16384 columns are the 8 tiles of 2048.
-/
import proofs.«153847_j85177791414715_1_alg».proof.Proof.Spec
import Mathlib.Algebra.BigOperators.Intervals

noncomputable section

open scoped BigOperators

namespace Cert.Contrast

open Idealize.ShloMosaic Idealize.ShloMosaic.ValueIdx

/-- The running sum after tile `n`: zero plus the first tile's contribution, then each later tile's added. -/
def accum (g : ℕ → EReal) : ℕ → EReal
  | 0 => 0 + g 0
  | n + 1 => accum g n + g (n + 1)

/-- It is the sum of the contributions so far. -/
theorem accum_eq_sum (g : ℕ → EReal) (n : ℕ) : accum g n = ∑ b ∈ Finset.range (n + 1), g b := by
  induction n with
  | zero => rw [accum, zero_add, Finset.sum_range_one]
  | succ n ih => rw [accum, ih, Finset.sum_range_succ _ (n + 1)]

/-- Key tile `b`'s contribution to row `i`'s positive sum. -/
def tilePos (κ : EReal) (f : Feat) (l : Lab) (i : Fin 16384) (b : ℕ) : EReal :=
  if h : b < 8 then
    ∑ k : Fin 2048, (if l (ix1 i) = l (ix1 (⟨2048 * b + k.val, by have := k.isLt; omega⟩ : Fin 16384))
      then sim f i ⟨2048 * b + k.val, by have := k.isLt; omega⟩ * κ else 0)
  else 0

/-- Key tile `b`'s contribution to row `i`'s negative sum. -/
def tileNeg (κ : EReal) (f : Feat) (l : Lab) (i : Fin 16384) (b : ℕ) : EReal :=
  if h : b < 8 then
    ∑ k : Fin 2048, (if l (ix1 i) = l (ix1 (⟨2048 * b + k.val, by have := k.isLt; omega⟩ : Fin 16384))
      then 0 else sim f i ⟨2048 * b + k.val, by have := k.isLt; omega⟩ * κ)
  else 0

/-- Inside the grid the positive contribution is the tile's sum. -/
theorem tilePos_lt (κ : EReal) (f : Feat) (l : Lab) (i : Fin 16384) {b : ℕ} (h : b < 8) :
    tilePos κ f l i b = ∑ k : Fin 2048,
      (if l (ix1 i) = l (ix1 (⟨2048 * b + k.val, by have := k.isLt; omega⟩ : Fin 16384))
        then sim f i ⟨2048 * b + k.val, by have := k.isLt; omega⟩ * κ else 0) := by
  rw [tilePos, dif_pos h]

/-- Inside the grid the negative contribution is the tile's sum. -/
theorem tileNeg_lt (κ : EReal) (f : Feat) (l : Lab) (i : Fin 16384) {b : ℕ} (h : b < 8) :
    tileNeg κ f l i b = ∑ k : Fin 2048,
      (if l (ix1 i) = l (ix1 (⟨2048 * b + k.val, by have := k.isLt; omega⟩ : Fin 16384))
        then 0 else sim f i ⟨2048 * b + k.val, by have := k.isLt; omega⟩ * κ) := by
  rw [tileNeg, dif_pos h]

/-- After the eighth tile the positive running sum is `pos`. -/
theorem accum_pos (κ : EReal) (f : Feat) (l : Lab) (i : Fin 16384) : accum (tilePos κ f l i) 7 = pos κ f l i := by
  rw [accum_eq_sum, pos, sum_tiles, ← Fin.sum_univ_eq_sum_range (tilePos κ f l i) 8]
  exact Finset.sum_congr rfl fun b _ => tilePos_lt κ f l i b.isLt

/-- After the eighth tile the negative running sum is `neg`. -/
theorem accum_neg (κ : EReal) (f : Feat) (l : Lab) (i : Fin 16384) : accum (tileNeg κ f l i) 7 = neg κ f l i := by
  rw [accum_eq_sum, neg, sum_tiles, ← Fin.sum_univ_eq_sum_range (tileNeg κ f l i) 8]
  exact Finset.sum_congr rfl fun b _ => tileNeg_lt κ f l i b.isLt

end Cert.Contrast

end
-- ==== Proof.IdealPoint.lean ====
/-
  A grid point's two accumulator updates, in the specification's terms.

  If the query tile holds rows `512 · q + r` of the features `f`, the key tile rows `2048 · b + k`, and the two label
  blocks the labels `l` of those rows, then the positive accumulator's new value at row `r` is its old value plus key
  tile `b`'s contribution `tilePos` to row `512 · q + r`, and likewise the negative one with `tileNeg`.
-/
import proofs.«153847_j85177791414715_1_alg».proof.Proof.IdealPayload
import proofs.«153847_j85177791414715_1_alg».proof.Proof.Accum

noncomputable section

open scoped BigOperators

namespace Cert.KernelIdeal.PointValue

open Cert.KernelIdeal Cert.KernelIdeal.Gen Cert.KernelIdeal.PayValue Cert.Contrast
open Idealize.ShloMosaic Idealize.ShloMosaic.ValueIdx

variable (f : Feat) (l : Lab) {q b : ℕ} (hq : q < 32) (hb : b < 8)
  (x0 : Vec Ideal S512x128 .bf16) (x1 : Vec Ideal S2048x128 .bf16) (x2 : Vec Ideal S512x1 .i32)
  (x3 : Vec Ideal S1x2048 .i32) (acc : Vec Ideal S512x1 .f32)
  (h0 : ∀ (r : Fin 512) (d : Fin 128),
    x0 (ix2 r d) = f (ix2 (⟨512 * q + r.val, by have := r.isLt; omega⟩ : Fin 16384) d))
  (h1 : ∀ (k : Fin 2048) (d : Fin 128),
    x1 (ix2 k d) = f (ix2 (⟨2048 * b + k.val, by have := k.isLt; omega⟩ : Fin 16384) d))
  (h2 : ∀ r : Fin 512, x2 (ix2 r (0 : Fin 1)) = l (ix1 (⟨512 * q + r.val, by have := r.isLt; omega⟩ : Fin 16384)))
  (h3 : ∀ k : Fin 2048, x3 (ix2 (0 : Fin 1) k) = l (ix1 (⟨2048 * b + k.val, by have := k.isLt; omega⟩ : Fin 16384)))

include h0 h1 h2 h3 in
/-- The positive accumulator after the point: what it held plus the key tile's positive contribution. -/
theorem pay7_tile (r : Fin 512) :
    k0_pay7 (F := Ideal) x0 x1 x2 x3 acc (ix2 r (0 : Fin 1))
      = acc (ix2 r (0 : Fin 1))
        + tilePos κ' f l (⟨512 * q + r.val, by have := r.isLt; omega⟩ : Fin 16384) b := by
  rw [pay7_apply, tilePos_lt κ' f l _ hb]
  refine congrArg (acc (ix2 r (0 : Fin 1)) + ·) (Finset.sum_congr rfl fun k _ => ?_)
  rw [h2 r, h3 k]
  refine if_congr Iff.rfl ?_ rfl
  refine congrArg (· * κ') (Finset.sum_congr rfl fun d _ => ?_)
  rw [h0 r d, h1 k d]

include h0 h1 h2 h3 in
/-- The negative accumulator after the point: what it held plus the key tile's negative contribution. -/
theorem pay8_tile (r : Fin 512) :
    k0_pay8 (F := Ideal) x0 x1 x2 x3 acc (ix2 r (0 : Fin 1))
      = acc (ix2 r (0 : Fin 1))
        + tileNeg κ' f l (⟨512 * q + r.val, by have := r.isLt; omega⟩ : Fin 16384) b := by
  rw [pay8_apply, tileNeg_lt κ' f l _ hb]
  refine congrArg (acc (ix2 r (0 : Fin 1)) + ·) (Finset.sum_congr rfl fun k _ => ?_)
  rw [h2 r, h3 k]
  refine if_congr Iff.rfl rfl ?_
  refine congrArg (· * κ') (Finset.sum_congr rfl fun d _ => ?_)
  rw [h0 r d, h1 k d]

end Cert.KernelIdeal.PointValue

end
-- ==== Proof.IdealBlocks.lean ====
/-
  The blocks a grid point reads, as entries of the arrays the kernel region finds, and what those arrays hold.

  The grid is 32 query tiles by 8 key tiles; point `t` has query tile `t / 8` and key tile `t % 8`. Its four input
  blocks are rows `512 · (t / 8) + r` of the normalised features (`r < 512`), rows `2048 · (t % 8) + k` of the same array
  (`k < 2048`), the labels of the first as a column and the labels of the second as a row. The arrays themselves are
  written by the operations before the region: the features are the input rows divided by the larger of their norm and
  a guard (narrowed to a shorter format, which on the extended reals changes nothing), and the two label arrays are the
  label vector re-laid as a column and as a row.
-/
import proofs.«153847_j85177791414715_1_alg».proof.Proof.IdealShared
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.BlockValue

open Idealize.ShloMosaic Idealize.ShloMosaic.TcCoe Idealize.ShloMosaic.ValueIdx Idealize.SL.Sem
open Idealize.ShloMosaic.StableHlo
open Cert.KernelIdeal Cert.KernelIdeal.Gen Cert.KernelIdeal.Hand

variable {F : FTy → Type} [FloatOps F] [Named F]
variable (m : (ℓ : Loc nD τ sig) → Buf (Elt F) ℓ)

/-! ## The grid's index maps -/

/-- A point's number is below 256. -/
theorem point_lt (t : Fin cfg0.N) : t.val < 256 := Nat.lt_of_lt_of_eq t.isLt N_0

/-- Row `r` of point `t`'s query tile, as a row of the whole array. -/
abbrev qrow (t : Fin cfg0.N) (r : Fin 512) : Fin 16384 :=
  ⟨512 * (t.val / 8) + r.val, by have := point_lt t; have := r.isLt; omega⟩
/-- Row `k` of point `t`'s key tile, as a row of the whole array. -/
abbrev krow (t : Fin cfg0.N) (k : Fin 2048) : Fin 16384 :=
  ⟨2048 * (t.val % 8) + k.val, by have := k.isLt; omega⟩

/-- The printed index maps, decided over the grid: the query windows and the output follow the query tile, the key
    windows the key tile. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-! ## The blocks -/

/-- The query tile's entry `(r, d)` is the features' entry `(512 · (t / 8) + r, d)`. -/
theorem iblk0_apply (c : Dev nD) (t : Fin cfg0.N) (r : Fin 512) (d : Fin 128) :
    iblk m c 0 t (ix2 r d) = V m c main_v5 (ix2 (qrow t r) d) := by
  obtain ⟨e0, e1, -⟩ := idx_facts t
  show V m c main_v5 (((cfg0.win 0).blk t).view.emb (ix2 r d)) = _
  refine congrArg (V m c main_v5) (funext fun a => Fin.ext ?_)
  match a with
  | ⟨0, _⟩ => show win0_0.index t (0 : Fin 2) * 512 + 1 * r.val = 512 * (t.val / 8) + r.val; omega
  | ⟨1, _⟩ => show win0_0.index t (1 : Fin 2) * 128 + 1 * d.val = d.val; omega

/-- The key tile's entry `(k, d)` is the features' entry `(2048 · (t % 8) + k, d)`. -/
theorem iblk1_apply (c : Dev nD) (t : Fin cfg0.N) (k : Fin 2048) (d : Fin 128) :
    iblk m c 1 t (ix2 k d) = V m c main_v5 (ix2 (krow t k) d) := by
  obtain ⟨-, -, e0, e1, -⟩ := idx_facts t
  show V m c main_v5 (((cfg0.win 1).blk t).view.emb (ix2 k d)) = _
  refine congrArg (V m c main_v5) (funext fun a => Fin.ext ?_)
  match a with
  | ⟨0, _⟩ => show win0_1.index t (0 : Fin 2) * 2048 + 1 * k.val = 2048 * (t.val % 8) + k.val; omega
  | ⟨1, _⟩ => show win0_1.index t (1 : Fin 2) * 128 + 1 * d.val = d.val; omega

/-- The query labels' entry `(r, 0)` is the label column's entry `(512 · (t / 8) + r, 0)`. -/
theorem iblk2_apply (c : Dev nD) (t : Fin cfg0.N) (r : Fin 512) :
    iblk m c 2 t (ix2 r (0 : Fin 1)) = V m c main_v6 (ix2 (qrow t r) (0 : Fin 1)) := by
  obtain ⟨-, -, -, -, e0, e1, -⟩ := idx_facts t
  show V m c main_v6 (((cfg0.win 2).blk t).view.emb (ix2 r (0 : Fin 1))) = _
  refine congrArg (V m c main_v6) (funext fun a => Fin.ext ?_)
  match a with
  | ⟨0, _⟩ => show win0_2.index t (0 : Fin 2) * 512 + 1 * r.val = 512 * (t.val / 8) + r.val; omega
  | ⟨1, _⟩ => show win0_2.index t (1 : Fin 2) * 1 + 1 * 0 = 0; omega

/-- The key labels' entry `(0, k)` is the label row's entry `(0, 2048 · (t % 8) + k)`. -/
theorem iblk3_apply (c : Dev nD) (t : Fin cfg0.N) (k : Fin 2048) :
    iblk m c 3 t (ix2 (0 : Fin 1) k) = V m c main_v7 (ix2 (0 : Fin 1) (krow t k)) := by
  obtain ⟨-, -, -, -, -, -, e0, e1, -⟩ := idx_facts t
  show V m c main_v7 (((cfg0.win 3).blk t).view.emb (ix2 (0 : Fin 1) k)) = _
  refine congrArg (V m c main_v7) (funext fun a => Fin.ext ?_)
  match a with
  | ⟨0, _⟩ => show win0_3.index t (0 : Fin 2) * 1 + 1 * 0 = 0; omega
  | ⟨1, _⟩ => show win0_3.index t (1 : Fin 2) * 2048 + 1 * k.val = 2048 * (t.val % 8) + k.val; omega

/-! ## What the arrays hold when the region is entered -/

omit [Named F] in
/-- The normalised features of an array of rows: each row divided by the larger of its Euclidean norm and the guard. -/
def feat (x : (⟨S16384x128, .f32⟩ : BufTy).Contents (Elt F)) : (⟨S16384x128, .f32⟩ : BufTy).Contents (Elt F) :=
  Host.divf x (broadcastInDim S16384x128 ![0, 1] bcast_S16384x1_S16384x128_0_1
    (maximumf
      (Host.sqrt (broadcastInDim S16384x1 ![0] bcast_S16384_S16384x1_0
        (Host.reduceAdd (mulf x x) (constant S_ .f32 0x00000000#32) reducesTo_S16384x128_S16384_d1 h_S_)))
      (broadcastInDim S16384x1 ![] bcast_S_S16384x1 (constant S_ .f32 0x2B8CBCCC#32))))

/-- The features' array: the normalised features of the input, narrowed. -/
theorem V_main_v5 (c : Dev nD) :
    (V m c main_v5 : (⟨S16384x128, .bf16⟩ : BufTy).Contents (Elt F))
      = truncf .bf16 (feat (m ((c : Thread nD τ).loc main_arg0))) bitsLt_bf16_f32 := by
  dsimp only [V, V0]
  simp only [hostOps0, hostOps0_1, List.flatten_cons, List.flatten_nil, List.append_nil, List.cons_append,
    List.nil_append]
  after_results
  rfl

/-- The label column: the labels re-laid as `[16384, 1]`. -/
theorem V_main_v6 (c : Dev nD) :
    (V m c main_v6 : (⟨S16384x1, .i32⟩ : BufTy).Contents (Elt F))
      = shapeCast S16384x1 (m ((c : Thread nD τ).loc main_arg1)) shapeCasts_S16384_S16384x1 := by
  dsimp only [V, V0]
  simp only [hostOps0, hostOps0_1, List.flatten_cons, List.flatten_nil, List.append_nil, List.cons_append,
    List.nil_append]
  after_results
  rfl

/-- The label row: the labels re-laid as `[1, 16384]`. -/
theorem V_main_v7 (c : Dev nD) :
    (V m c main_v7 : (⟨S1x16384, .i32⟩ : BufTy).Contents (Elt F))
      = shapeCast S1x16384 (m ((c : Thread nD τ).loc main_arg1)) shapeCasts_S16384_S1x16384 := by
  dsimp only [V, V0]
  simp only [hostOps0, hostOps0_1, List.flatten_cons, List.flatten_nil, List.append_nil, List.cons_append,
    List.nil_append]
  after_results
  rfl

/-- The label column at `(i, 0)` is label `i`. -/
theorem V_main_v6_apply (c : Dev nD) (i : Fin 16384) :
    V m c main_v6 (ix2 i (0 : Fin 1)) = m ((c : Thread nD τ).loc main_arg1) (ix1 i) := by
  rw [V_main_v6]
  exact shapeCast_apply _ shapeCasts_S16384_S16384x1 (ix2 i (0 : Fin 1)) (ix1 i) (by
    rw [Shape.rowMajor_val_one, Shape.rowMajor_val_two]
    show i.val = i.val * 1 + 0
    omega)

/-- The label row at `(0, j)` is label `j`. -/
theorem V_main_v7_apply (c : Dev nD) (j : Fin 16384) :
    V m c main_v7 (ix2 (0 : Fin 1) j) = m ((c : Thread nD τ).loc main_arg1) (ix1 j) := by
  rw [V_main_v7]
  exact shapeCast_a_1a_apply _ shapeCasts_S16384_S1x16384 (0 : Fin 1) j

end Cert.KernelIdeal.BlockValue

/-! ## At the ideal instance the narrowing is the identity -/

namespace Cert.KernelIdeal.BlockValue

open Idealize.ShloMosaic Idealize.ShloMosaic.TcCoe Idealize.ShloMosaic.ValueIdx Idealize.SL.Sem
open Cert.KernelIdeal Cert.KernelIdeal.Gen Cert.KernelIdeal.Hand

/-- On the extended reals the features' array is the normalised features of the input, entry by entry. -/
theorem V_main_v5_ideal (m : (ℓ : Loc nD τ sig) → Buf (Elt Ideal) ℓ) (c : Dev nD) (i : S16384x128.Idx) :
    V m c main_v5 i = feat (F := Ideal) (m ((c : Thread nD τ).loc main_arg0)) i := by
  rw [V_main_v5]
  generalize feat (F := Ideal) (m ((c : Thread nD τ).loc main_arg0)) = y
  exact truncf_apply y bitsLt_bf16_f32 i

end Cert.KernelIdeal.BlockValue

end
-- ==== Proof.IdealAccum.lean ====
/-
  What the two row accumulators hold after each grid point, in the specification's terms: at key tile n of a query
  tile, for the query row r of that tile, the first holds the sum over the key tiles 0..n of the similarities (times
  the inverse temperature) to the keys of those tiles that carry the row's label, the second the same sum over the
  keys that carry another label; both start from zero at key tile 0. At the last key tile these are the row's two
  full sums, and what the body stores into the output window there is the row's loss.
-/
import proofs.«153847_j85177791414715_1_alg».proof.Proof.IdealPieces
import proofs.«153847_j85177791414715_1_alg».proof.Proof.IdealPoint
import proofs.«153847_j85177791414715_1_alg».proof.Proof.IdealBlocks

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Contrast
open Cert.KernelIdeal.PayValue Cert.KernelIdeal.PointValue Cert.KernelIdeal.BlockValue

variable (m : (ℓ : Loc nD τ sig) → Buf (Elt Ideal) ℓ)

/-- The normalised features as the region finds them. -/
abbrev nf (c : Dev nD) : Feat := fun i => V m c main_v5 i
/-- The labels. -/
abbrev lb (c : Dev nD) : Lab := m ((c : Thread nD τ).loc main_arg1)

/-- One key tile's contribution to the same-label accumulator, at the point's blocks. -/
theorem step_pos (c : Dev nD) (t : Fin cfg0.N) (acc : Vec Ideal S512x1 .f32) (r : Fin 512) :
    k0_pay7 (F := Ideal) (iblk m c 0 t) (iblk m c 1 t) (iblk m c 2 t) (iblk m c 3 t) acc (ix2 r (0 : Fin 1))
      = acc (ix2 r (0 : Fin 1)) + tilePos κ' (nf m c) (lb m c) (qrow t r) (t.val % 8) :=
  pay7_tile (nf m c) (lb m c) (q := t.val / 8) (b := t.val % 8) (by have := point_lt t; omega) (Nat.mod_lt _ (by norm_num))
    (iblk m c 0 t) (iblk m c 1 t) (iblk m c 2 t) (iblk m c 3 t) acc
    (fun r d => iblk0_apply m c t r d) (fun k d => iblk1_apply m c t k d)
    (fun r => (iblk2_apply m c t r).trans (V_main_v6_apply m c _)) (fun k => (iblk3_apply m c t k).trans (V_main_v7_apply m c _)) r

/-- And to the other-label accumulator. -/
theorem step_neg (c : Dev nD) (t : Fin cfg0.N) (acc : Vec Ideal S512x1 .f32) (r : Fin 512) :
    k0_pay8 (F := Ideal) (iblk m c 0 t) (iblk m c 1 t) (iblk m c 2 t) (iblk m c 3 t) acc (ix2 r (0 : Fin 1))
      = acc (ix2 r (0 : Fin 1)) + tileNeg κ' (nf m c) (lb m c) (qrow t r) (t.val % 8) :=
  pay8_tile (nf m c) (lb m c) (q := t.val / 8) (b := t.val % 8) (by have := point_lt t; omega) (Nat.mod_lt _ (by norm_num))
    (iblk m c 0 t) (iblk m c 1 t) (iblk m c 2 t) (iblk m c 3 t) acc
    (fun r d => iblk0_apply m c t r d) (fun k d => iblk1_apply m c t k d)
    (fun r => (iblk2_apply m c t r).trans (V_main_v6_apply m c _)) (fun k => (iblk3_apply m c t k).trans (V_main_v7_apply m c _)) r

/-- THE ACCUMULATION, by induction on the grid position: after position n the accumulators hold the partial sums
    over the key tiles 0 .. n % 8 of the position's query tile. -/
theorem acc_eq (c : Dev nD) : ∀ (n : ℕ) (h : n < cfg0.N) (r : Fin 512),
    (outsAt0 m c n h).2.1 (ix2 r (0 : Fin 1)) = accum (tilePos κ' (nf m c) (lb m c) (qrow ⟨n, h⟩ r)) (n % 8)
    ∧ (outsAt0 m c n h).2.2 (ix2 r (0 : Fin 1)) = accum (tileNeg κ' (nf m c) (lb m c) (qrow ⟨n, h⟩ r)) (n % 8)
  | 0, h, r => by
    rw [outsAt0_A m c ⟨0, h⟩ rfl (by dsimp only; omega)]
    dsimp only
    rw [sout_A_0, sout_A_1, pay1_apply, step_pos, step_neg, pay3_apply, pay4_apply]
    exact ⟨rfl, rfl⟩
  | n + 1, h, r => by
    have hN : cfg0.N = 256 := N_0
    by_cases h0 : (n + 1) % 8 = 0
    · rw [outsAt0_A m c ⟨n + 1, h⟩ h0 (by dsimp only; omega)]
      dsimp only
      rw [sout_A_0, sout_A_1, pay1_apply, step_pos, step_neg, pay3_apply, pay4_apply]
      dsimp only
      rw [h0]
      exact ⟨rfl, rfl⟩
    · have ih := acc_eq c n (Nat.lt_of_succ_lt h) r
      have hq : qrow ⟨n + 1, h⟩ r = qrow ⟨n, Nat.lt_of_succ_lt h⟩ r := Fin.ext (by dsimp only [qrow]; omega)
      have hm : (n + 1) % 8 = n % 8 + 1 := by omega
      by_cases h1 : (n + 1) % 8 = 7
      · rw [outsAt0_C m c ⟨n + 1, h⟩ h0 h1]
        dsimp only
        rw [sout_C_0, sout_C_1, pay1_apply, step_pos, step_neg]
        dsimp only
        rw [hm, hq]
        exact ⟨congrArg (· + _) ih.1, congrArg (· + _) ih.2⟩
      · rw [outsAt0_B m c ⟨n + 1, h⟩ h0 h1]
        dsimp only
        rw [sout_B_0, sout_B_1, pay1_apply, step_pos, step_neg]
        dsimp only
        rw [hm, hq]
        exact ⟨congrArg (· + _) ih.1, congrArg (· + _) ih.2⟩

/-- At the last key tile of a query tile the body stores, for each query row, the row's loss. -/
theorem out_eq (c : Dev nD) (t : Fin cfg0.N) (h7 : t.val % 8 = 7) (r : Fin 512) :
    (outsAt0 m c t.val t.isLt).1 (ix2 r (0 : Fin 1)) = rowLoss κ' PayValue.ε (nf m c) (lb m c) (qrow t r) := by
  have h0 : ¬ t.val % 8 = 0 := by omega
  have hacc := acc_eq m c t.val t.isLt r
  rw [outsAt0_C m c t h0 h7] at hacc ⊢
  dsimp only at hacc ⊢
  rw [sout_C_0, sout_C_1] at hacc
  rw [out_C_4, pay2_apply, hacc.1, hacc.2, h7, accum_pos, accum_neg]
  rfl

end Cert.KernelIdeal.Hand

end
-- ==== Proof.IdealFinal.lean ====
/-
  From the output window's blocks to the column of row losses.

  The output window's block at point `t` is rows `512 · (t / 8) … 512 · (t / 8) + 511` of the `[16384, 1]` loss column, and
  it is written back exactly at the last key tile of each query tile (`t % 8 = 7`). So if, at every such point, the
  output buffer holds at row `r` the value `Lf (512 · (t / 8) + r)` of one function `Lf` of the row, the column ends
  holding `Lf i` at every row `i`: row `i` is covered by the point `8 · (i / 512) + 7`.
-/
import proofs.«153847_j85177791414715_1_alg».proof.Proof.IdealFrame
import proofs.«153847_j85177791414715_1_alg».proof.Proof.IdealBlocks
import proofs.«153847_j85177791414715_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The loss column a function of the row would fill. -/
abbrev column (Lf : Fin 16384 → EReal) : S16384x1.Idx → EReal := fun j => Lf ⟨(j 0).val, idx2_lt0 j⟩

/-- WHAT A LAST KEY TILE WRITES BACK is its block of the column. -/
theorem flushed4_eq (c : Dev nD) (Lf : Fin 16384 → EReal)
    (hout : ∀ t : Fin cfg0.N, t.val % 8 = 7 → ∀ r : Fin 512,
      (outsAt0 m c t.val t.isLt).1 (ix2 r (0 : Fin 1)) = Lf (BlockValue.qrow t r))
    (t : Fin cfg0.N) (hf : (cfg0.win 4).flush t = true) :
    (dats m 0 c).flushed 4 t = ((cfg0.win 4).blk t).view.read (Elt Ideal) (column Lf) := by
  have h7 : t.val % 8 = 7 := (flush0_4 t).mp hf
  obtain ⟨-, -, -, -, -, -, -, -, e0, e1⟩ := BlockValue.idx_facts t
  show (cfg0.win 4).cut (grid0.coords t) ((dats m 0 c).after 4 t) = _
  rw [after0_4]
  funext y
  obtain ⟨r, u, rfl⟩ : ∃ (r : Fin 512) (u : Fin 1), y = ix2 r u := ⟨y 0, y 1, eq_ix2 y⟩
  obtain rfl : u = 0 := Subsingleton.elim _ _
  show (outsAt0 m c t.val t.isLt).1 (ix2 r (0 : Fin 1)) = column Lf (((cfg0.win 4).blk t).view.emb (ix2 r (0 : Fin 1)))
  rw [hout t h7 r]
  refine congrArg Lf (Fin.ext ?_)
  show 512 * (t.val / 8) + r.val = win0_4.index t (0 : Fin 2) * 512 + 1 * r.val
  omega

/-- An index of the column is in point `t`'s block iff each coordinate is in the block's range on its axis. -/
theorem mem_blk4 (t : Fin cfg0.N) (i : S16384x1.Idx) :
    i ∈ ((cfg0.win 4).blk t).view.set ↔ ∀ a : Fin 2,
      win0_4.index t a * S512x1.size a ≤ (i a).val ∧ (i a).val < win0_4.index t a * S512x1.size a + S512x1.size a := by
  show i ∈ ((View.whole main_v8).slice (win0_4.rect t)).set ↔ _
  rw [View.set_slice_whole, Rect.mem_set_unit]
  exact Iff.rfl

/-- Every row of the column is in the block of its query tile's last point. -/
theorem cover4 (i : S16384x1.Idx) :
    ∃ t : Fin cfg0.N, (cfg0.win 4).flush t = true ∧ i ∈ ((cfg0.win 4).blk t).view.set := by
  have hi0 : (i 0).val < 16384 := idx2_lt0 i
  have hi1 : (i 1).val < 1 := idx2_lt1 i
  have hN : cfg0.N = 256 := N_0
  refine ⟨⟨8 * ((i 0).val / 512) + 7, by rw [hN]; omega⟩, (flush0_4 _).mpr (by show (8 * ((i 0).val / 512) + 7) % 8 = 7; omega), ?_⟩
  obtain ⟨-, -, -, -, -, -, -, -, e0, e1⟩ := BlockValue.idx_facts ⟨8 * ((i 0).val / 512) + 7, by rw [hN]; omega⟩
  rw [mem_blk4]
  intro a
  match a with
  | ⟨0, _⟩ =>
    show win0_4.index _ (0 : Fin 2) * 512 ≤ (i 0).val ∧ (i 0).val < win0_4.index _ (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win0_4.index _ (1 : Fin 2) * 1 ≤ (i 1).val ∧ (i 1).val < win0_4.index _ (1 : Fin 2) * 1 + 1
    rw [e1]
    omega

/-- THE COLUMN after the run: `Lf` of the row at every row. -/
theorem final4 (c : Dev nD) (Lf : Fin 16384 → EReal)
    (hout : ∀ t : Fin cfg0.N, t.val % 8 = 7 → ∀ r : Fin 512,
      (outsAt0 m c t.val t.isLt).1 (ix2 r (0 : Fin 1)) = Lf (BlockValue.qrow t r)) :
    ∀ i : Fin 16384, (dats m 0 c).arrAt 4 cfg0.N (ix2 i (0 : Fin 1)) = Lf i := by
  intro i
  rw [(dats m 0 c).arrAt_eq_of_cover 4 (column Lf) (flushed4_eq m c Lf hout) cover4]

end Cert.KernelIdeal.Hand

end
-- ==== Proof.IdealTail.lean ====
/-
  The operations after the kernel region: the mean of the rows' losses.

  The region leaves a column `[16384, 1]` of row losses. The program re-lays it as a vector, sums it from zero and
  divides by `16384`. If the column holds `rowLoss i` at every row `i`, the result is `(0 + ∑ i, rowLoss i) / 16384`,
  the specification's `total`: the re-laid vector at `i` is the column at `(i, 0)`, and a sum over a rank-1 index set
  is the sum over its coordinate.
-/
import proofs.«153847_j85177791414715_1_alg».proof.Proof.Gen.KernelIdeal.Launch
import proofs.«153847_j85177791414715_1_alg».proof.Proof.Spec
import Idealize.ShloMosaic.PureOps.Ideal.Laws
import Idealize.ShloMosaic.Lib.Pipeline.Value
import Idealize.ShloMosaic.Lib.ValueIdx
import Idealize.ShloMosaic.Lib.StableHlo.Run

noncomputable section

open scoped BigOperators

namespace Cert.KernelIdeal.TailValue

open Idealize.ShloMosaic Idealize.ShloMosaic.TcCoe Idealize.ShloMosaic.ValueIdx Idealize.SL.Sem
open Idealize.ShloMosaic.StableHlo
open Cert.KernelIdeal Cert.KernelIdeal.Gen Cert.Contrast

/-- The column re-laid as a vector reads, at `i`, the column at `(i, 0)`. -/
theorem relaid_apply (y : FVec Ideal S16384x1 .f32) (i : Fin 16384) :
    shapeCast S16384 y shapeCasts_S16384x1_S16384 (ix1 i) = y (ix2 i (0 : Fin 1)) :=
  shapeCast_apply y shapeCasts_S16384x1_S16384 (ix1 i) (ix2 i (0 : Fin 1)) (by
    rw [Shape.rowMajor_val_one, Shape.rowMajor_val_two]
    show i.val * 1 + 0 = i.val
    omega)

/-- The three arithmetic operations of the tail, of a column holding the rows' losses: their mean. -/
theorem tail_term (y : FVec Ideal S16384x1 .f32) (κ e : EReal) (f : Feat) (l : Lab)
    (hy : ∀ i : Fin 16384, y (ix2 i (0 : Fin 1)) = rowLoss κ e f l i) (j : S_.Idx) :
    Host.divf (Host.reduceAdd (shapeCast S16384 y shapeCasts_S16384x1_S16384)
        (constant (F := Ideal) S_ .f32 0x00000000#32) reducesTo_S16384_S_d0 h_S_)
      (constant (F := Ideal) S_ .f32 0x46800000#32) j = total κ e f l := by
  have hs : Host.reduceAdd (shapeCast S16384 y shapeCasts_S16384x1_S16384)
      (constant (F := Ideal) S_ .f32 0x00000000#32) reducesTo_S16384_S_d0 h_S_ j
        = 0 + ∑ i : Fin 16384, rowLoss κ e f l i := by
    have hz : ∀ i : Fin 16384, shapeCast S16384 y shapeCasts_S16384x1_S16384 (ix1 i) = rowLoss κ e f l i :=
      fun i => (relaid_apply y i).trans (hy i)
    generalize shapeCast S16384 y shapeCasts_S16384x1_S16384 = z at hz
    simp only [Host.reduceAdd, Ideal.hostReduceAdd_def]
    refine (Ideal.hostReduceAdd_total reducesTo_S16384_S_d0 (fun b => b.elim0) z _ j).trans ?_
    show Ideal.ofBits .f32 0x00000000#32 + ∑ i : S16384.Idx, z i = _
    rw [Ideal.ofBits_zero_f32, sum_idx1]
    exact congrArg (0 + ·) (Finset.sum_congr rfl fun i _ => hz i)
  show Ideal.div (Host.reduceAdd (shapeCast S16384 y shapeCasts_S16384x1_S16384)
      (constant (F := Ideal) S_ .f32 0x00000000#32) reducesTo_S16384_S_d0 h_S_ j) (Ideal.ofBits .f32 0x46800000#32) = _
  rw [hs]
  rfl

/-- THE TAIL: from any contents of the device's buffers whose loss column holds the rows' losses, the five
    operations after the region leave the mean loss in the result. -/
theorem tail_value (W : Valuation τ sig (Elt Ideal)) (κ e : EReal) (f : Feat) (l : Lab)
    (hW : ∀ i : Fin 16384,
      (W (Proc.devRef .tc main_v8) : (⟨S16384x1, .f32⟩ : BufTy).Contents (Elt Ideal)) (ix2 i (0 : Fin 1))
        = rowLoss κ e f l i) :
    (StableHlo.after (hostOps1 (F := Ideal)) W (Proc.devRef .tc main_v11) : (⟨S_, .f32⟩ : BufTy).Contents (Elt Ideal))
      = fun _ => total κ e f l := by
  have h : (StableHlo.after (hostOps1 (F := Ideal)) W (Proc.devRef .tc main_v11) : (⟨S_, .f32⟩ : BufTy).Contents (Elt Ideal))
      = Host.divf (Host.reduceAdd (shapeCast S16384 (W (Proc.devRef .tc main_v8)) shapeCasts_S16384x1_S16384)
          (constant (F := Ideal) S_ .f32 0x00000000#32) reducesTo_S16384_S_d0 h_S_)
        (constant (F := Ideal) S_ .f32 0x46800000#32) := by
    simp only [hostOps1]
    after_results
    rfl
  rw [h]
  funext j
  exact tail_term _ κ e f l hW j

end Cert.KernelIdeal.TailValue

end
-- ==== Proof.FeatureStage.lean ====
/-
  The kernel's program and the reference normalise the rows by the same operations.

  Both square the entries, sum each row from zero, take the square root, take the larger of that norm and the guard
  `1e-12`, and divide each row by it: the same five operations and the same two constants, in the same order. The two
  terms differ only in which program's side conditions they cite, so they are one function.
-/
import proofs.«153847_j85177791414715_1_alg».proof.Proof.IdealBlocks
import proofs.«153847_j85177791414715_1_alg».proof.Proof.Gen.ReferenceIdeal.Read

noncomputable section

namespace Cert.FeatureStage

open Idealize.ShloMosaic

variable {F : FTy → Type} [FloatOps F]

/-- The kernel side's normalised features are the reference's stage of the same name. -/
theorem feat_eq_ref (x : (⟨⟨2, ![16384, 128]⟩, .f32⟩ : BufTy).Contents (Elt F)) :
    Cert.KernelIdeal.BlockValue.feat (F := F) x = Cert.ReferenceIdeal.Read.val_main_v4 (F := F) x := by
  unfold Cert.KernelIdeal.BlockValue.feat Cert.ReferenceIdeal.Read.val_main_v4 Cert.ReferenceIdeal.Read.val_main_v3
    Cert.ReferenceIdeal.Read.val_main_v2 Cert.ReferenceIdeal.Read.val_main_v0 Cert.ReferenceIdeal.Read.val_main_v1
    Cert.ReferenceIdeal.Read.val_main_cst Cert.ReferenceIdeal.Read.val_main_call0_v2
    Cert.ReferenceIdeal.Read.val_main_call0_v1 Cert.ReferenceIdeal.Read.val_main_call0_v0
    Cert.ReferenceIdeal.Read.val_main_call0_cst
  rfl

end Cert.FeatureStage

end
-- ==== Proof.IdealResult.lean ====
/-
  The kernel's result: the mean over the 16384 rows of the row losses, each row's loss computed from its two sums
  over all 16384 keys, which the grid accumulated tile by tile. The normalised features the kernel region finds are
  the same array the reference computes: both programs normalise the rows by the same five operations, and the
  change of float format before the region is the identity over the extended reals.
-/
import proofs.«153847_j85177791414715_1_alg».proof.Proof.IdealAccum
import proofs.«153847_j85177791414715_1_alg».proof.Proof.IdealFinal
import proofs.«153847_j85177791414715_1_alg».proof.Proof.IdealTail
import proofs.«153847_j85177791414715_1_alg».proof.Proof.FeatureStage

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Contrast
open Cert.KernelIdeal.PayValue Cert.KernelIdeal.BlockValue

variable (m : (ℓ : Loc nD τ sig) → Buf (Elt Ideal) ℓ)

/-- The normalised features the region finds are the reference's normalised features of the same input. -/
theorem nf_eq (c : Dev nD) :
    nf m c = Cert.ReferenceIdeal.Read.val_main_v4 (F := Ideal) (m ((c : Thread nD τ).loc main_arg0)) := by
  funext i
  exact (V_main_v5_ideal m c i).trans (congrFun (Cert.FeatureStage.feat_eq_ref _) i)

/-- What the result buffer holds after the five operations that follow the region: the specification's total. -/
theorem result_eq (c : Dev nD) :
    Pipeline.afterTail₀ cfgs (dats m) 0 (V0 m) [hostOps1] c main_v11
      = fun _ => total κ' PayValue.ε (nf m c) (lb m c) := by
  unfold Pipeline.afterTail₀
  show StableHlo.after (hostOps1 (F := Ideal)) _ (Proc.devRef .tc main_v11) = _
  exact Cert.KernelIdeal.TailValue.tail_value _ κ' PayValue.ε (nf m c) (lb m c) (fun i => by
    rw [withArrays_v8]
    exact final4 m c (fun i => rowLoss κ' PayValue.ε (nf m c) (lb m c) i) (fun t h7 r => out_eq m c t h7 r) i)

end Cert.KernelIdeal.Hand

end
-- ==== Proof.RefIsSpec.lean ====
/-
  The reference program's result, at the ideal instance, is the contrastive loss of Spec.lean.

  The reference first normalises the rows (its stage `val_main_v4`, left unopened here: `f` below), then forms the
  Gram matrix `s = f fᵀ` (a transpose and a `dot_general`), divides every entry by the temperature `0.1` — the f32
  word `0x3DCCCCCD`, which denotes the rational `13421773 / 134217728`, so the quotient is the product with
  `κ = 134217728 / 13421773` on every extended real —, multiplies by the mask `[l i = l j]` (a compared pair of
  broadcast labels converted to `0.0` / `1.0`) and by its complement `1 − mask`, sums each along the columns, and
  ends with `−log (pos / (pos + neg + e))` averaged over the rows. Entry by entry: `x · 1 = x`, `x · 0 = 0`,
  `1 − 1 = 0`, `1 − 0 = 1`, `0 + x = x`, `−y = 0 − y` hold on all of the extended reals, so no finiteness is used.
-/
import proofs.«153847_j85177791414715_1_alg».proof.Defs
import proofs.«153847_j85177791414715_1_alg».proof.Proof.Gen.ReferenceIdeal.Run
import proofs.«153847_j85177791414715_1_alg».proof.Proof.Gen.ReferenceIdeal.Read
import proofs.«153847_j85177791414715_1_alg».proof.Proof.Spec
import Idealize.ShloMosaic.PureOps.Ideal.Laws
import Idealize.ShloMosaic.Lib.IdealHost

noncomputable section

open scoped BigOperators

namespace Cert.ReferenceIdeal.RefValue

open Cert.ReferenceIdeal Cert.ReferenceIdeal.Gen Cert.ReferenceIdeal.Read Cert.Contrast
open Idealize.ShloMosaic Idealize.ShloMosaic.ValueIdx Idealize.ShloMosaic.TcCoe Idealize.SL.Sem

/-- The inverse temperature: the reciprocal of the rational the f32 word of `0.1` denotes. -/
abbrev κ : EReal := ((134217728 / 13421773 : ℝ) : EReal)
/-- The guard inside the logarithm, kept as its word. -/
abbrev ε : EReal := Ideal.ofBits .f32 0x322BCC77#32

/-! ## The constants -/

/-- The f32 word of `0.1` denotes `13421773 / 2^27`. -/
theorem ofBits_temp : Ideal.ofBits .f32 0x3DCCCCCD#32 = ((13421773 / 134217728 : ℝ) : EReal) := by
  simp [Ideal.ofBits, Ideal.ieee, -EReal.coe_mul]; norm_num

/-- Dividing by the temperature is multiplying by its reciprocal, on every extended real. -/
theorem div_temp (s : EReal) : Ideal.div s (Ideal.ofBits .f32 0x3DCCCCCD#32) = s * κ := by
  rw [ofBits_temp, Ideal.div_coe (by norm_num : (13421773 / 134217728 : ℝ) ≠ 0)]
  congr 2
  norm_num

/-- A compared pair of words converted to a float is `1` on equality and `0` otherwise. -/
theorem mask_eq (a b : BitVec 32) :
    FloatOps.uitofp (F := Ideal) .f32 (IntOp.cmpi .eq a b) = if a = b then (1 : EReal) else 0 := by
  show (((BitVec.ofBool (a == b)).toNat : ℝ) : EReal) = _
  by_cases h : a = b
  · rw [if_pos h, beq_iff_eq.mpr h]; simp
  · rw [if_neg h, beq_eq_false_iff_ne.mpr h]; simp

/-- `1 − 1 = 0` on the extended reals. -/
theorem one_sub_one : (1 : EReal) - 1 = 0 := by
  rw [← EReal.coe_one, ← EReal.coe_sub, sub_self, EReal.coe_zero]

/-! ## The stages at an entry -/

variable (x : (⟨S16384x128, .f32⟩ : BufTy).Contents (Elt Ideal)) (lab : (⟨S16384, .i32⟩ : BufTy).Contents (Elt Ideal))

/-- The scaled Gram matrix at `(i, j)`. -/
theorem scaled_apply (i j : Fin 16384) :
    val_main_v8 (F := Ideal) x (ix2 i j) = sim (val_main_v4 (F := Ideal) x) i j * κ := by
  have el : ∀ k : Fin 128, lidx_main_v6 (ix2 i j) k = ix2 i k := fun k =>
    funext fun a => Fin.ext (by match a with | ⟨0, _⟩ => rfl | ⟨1, _⟩ => rfl)
  have er : ∀ k : Fin 128, idx_main_v5 (ridx_main_v6 (ix2 i j) k) = ix2 j k := fun k =>
    funext fun a => Fin.ext (by match a with | ⟨0, _⟩ => rfl | ⟨1, _⟩ => rfl)
  rw [val_main_v8_apply, val_main_v6_apply, val_main_v7_apply, val_main_cst_0_apply]
  simp only [val_main_v5_apply, el, er, Ideal.hostDivf_def, Ideal.ofBits_def]
  rw [div_temp]
  rfl

/-- The mask at `(i, j)`. -/
theorem mask_apply (i j : Fin 16384) :
    val_main_v14 (F := Ideal) lab (ix2 i j) = if lab (ix1 i) = lab (ix1 j) then (1 : EReal) else 0 := by
  have ei : idx_main_v9 (idx_main_v11 (ix2 i j)) = ix1 i :=
    funext fun a => Fin.ext (by match a with | ⟨0, _⟩ => rfl)
  have ej : idx_main_v10 (idx_main_v12 (ix2 i j)) = ix1 j :=
    funext fun a => Fin.ext (by match a with | ⟨0, _⟩ => rfl)
  rw [val_main_v14_apply, val_main_v13_apply, val_main_v11_apply, val_main_v12_apply, val_main_v9_apply,
    val_main_v10_apply, ei, ej]
  exact mask_eq _ _

/-- The first row sum is `pos`. -/
theorem pos_apply (i : Fin 16384) :
    val_main_v16 (F := Ideal) x lab (ix1 i) = pos κ (val_main_v4 (F := Ideal) x) lab i := by
  have ek : ∀ k : Fin 16384, idx_main_v16 (ix1 i) k = ix2 i k := fun k =>
    funext fun a => Fin.ext (by match a with | ⟨0, _⟩ => rfl | ⟨1, _⟩ => rfl)
  rw [val_main_v16_apply, val_main_cst_1_apply, Ideal.ofBits_def, Ideal.ofBits_zero_f32, zero_add]
  unfold pos
  refine Finset.sum_congr rfl fun k _ => ?_
  rw [ek, val_main_v15_apply, Ideal.mulf_def, scaled_apply, mask_apply]
  split_ifs
  · rw [mul_one]
  · rw [mul_zero]

/-- The second row sum is `neg`. -/
theorem neg_apply (i : Fin 16384) :
    val_main_v20 (F := Ideal) x lab (ix1 i) = neg κ (val_main_v4 (F := Ideal) x) lab i := by
  have ek : ∀ k : Fin 16384, idx_main_v20 (ix1 i) k = ix2 i k := fun k =>
    funext fun a => Fin.ext (by match a with | ⟨0, _⟩ => rfl | ⟨1, _⟩ => rfl)
  rw [val_main_v20_apply, val_main_cst_3_apply, Ideal.ofBits_def, Ideal.ofBits_zero_f32, zero_add]
  unfold neg
  refine Finset.sum_congr rfl fun k _ => ?_
  rw [ek, val_main_v19_apply, Ideal.mulf_def, scaled_apply, val_main_v18_apply, Ideal.subf_def, mask_apply,
    val_main_v17_apply, val_main_cst_2_apply, Ideal.ofBits_def, Ideal.ofBits_one_f32]
  split_ifs
  · rw [one_sub_one, mul_zero]
  · rw [sub_zero, mul_one]

/-- Row `i`'s loss. -/
theorem rowLoss_apply (i : Fin 16384) :
    val_main_v26 (F := Ideal) x lab (ix1 i) = rowLoss κ ε (val_main_v4 (F := Ideal) x) lab i := by
  rw [val_main_v26_apply, val_main_v25_apply, val_main_v24_apply, val_main_v23_apply, val_main_v21_apply,
    val_main_v22_apply, val_main_cst_4_apply, pos_apply, neg_apply]
  simp only [Ideal.hostNegf_def, Ideal.negf_def, Ideal.hostUnary_log_def, Ideal.hostDivf_def, Ideal.addf_def,
    Ideal.ofBits_def]
  unfold rowLoss
  rw [zero_sub]

/-- THE REFERENCE'S RESULT is the mean contrastive loss of the normalised features and the labels. -/
theorem ref_total :
    val_main_v28 (F := Ideal) x lab ix0 = total κ ε (val_main_v4 (F := Ideal) x) lab := by
  rw [val_main_v28_apply, val_main_v27_apply, val_main_cst_5_apply, val_main_cst_6_apply, sum_idx1]
  simp only [rowLoss_apply, Ideal.hostDivf_def, Ideal.ofBits_def, Ideal.ofBits_zero_f32]
  rfl

/-- The same, as the whole (one-element) result array. -/
theorem ref_total_fun :
    val_main_v28 (F := Ideal) x lab = fun _ => total κ ε (val_main_v4 (F := Ideal) x) lab :=
  funext fun i => by rw [eq_ix0 i]; exact ref_total x lab

/-- The reference run's result term is that array, of the run's two argument arrays. -/
theorem ref_result (m : (ℓ : Loc nD τ sig) → Buf (Elt Ideal) ℓ) (c : Dev nD) :
    Cert.ReferenceIdeal.Value.res_main_v28 m c
      = fun _ => total κ ε (val_main_v4 (F := Ideal) (m ((c.tc : Thread nD τ).loc main_arg0)))
          (m ((c.tc : Thread nD τ).loc main_arg1)) :=
  (val_main_v28_eq m c).trans (ref_total_fun _ _)

end Cert.ReferenceIdeal.RefValue

end
-- ==== Proof.lean ====
/-
  The contrastive loss of 16384 feature rows of width 128 with integer labels: each row is divided by the larger of
  its Euclidean norm and a small constant; the similarity of two rows is their inner product divided by the
  temperature; a row's loss is minus the logarithm of the sum of its similarities to the rows of its own label over
  the sum of all its similarities plus a small constant; the result is the mean of the row losses.

  The kernel computes the similarities tile by tile (512 query rows against 2048 key rows at a grid point), keeps per
  query row the running sums over same-label keys and over other-label keys across the eight key tiles, and writes
  the row losses at the last key tile; it multiplies by the inverse temperature where the reference divides by the
  temperature. Over the extended reals the inverse temperature is read as the exact reciprocal of the reference's
  temperature, so a product with it is the reference's quotient; selecting a similarity or zero by the label mask is
  multiplying by a mask of ones and zeros; and a sum over the 16384 keys is the sum over the eight tiles of the sums
  within each tile, in any order. So both programs end at one number.

  The claim's five parts: each of the three programs runs to the end without a fault and leaves its two inputs
  unchanged; the one rewrite of the idealization (the named inverse temperature) means what its rule states; and the
  idealized kernel and the idealized reference, run from memories that agree on the inputs, end with equal results.
-/
import proofs.«153847_j85177791414715_1_alg».proof.Defs
import proofs.«153847_j85177791414715_1_alg».proof.Proof.Gen.Kernel
import proofs.«153847_j85177791414715_1_alg».proof.Proof.Gen.KernelIdeal
import proofs.«153847_j85177791414715_1_alg».proof.Proof.Gen.ReferenceIdeal
import proofs.«153847_j85177791414715_1_alg».proof.Proof.Gen.Pre_finite_inputs
import proofs.«153847_j85177791414715_1_alg».proof.Proof.Gen.ReferenceIdeal.Run
import proofs.«153847_j85177791414715_1_alg».proof.Proof.Gen.ReferenceIdeal.Read
import proofs.«153847_j85177791414715_1_alg».proof.Proof.BitsFrame
import proofs.«153847_j85177791414715_1_alg».proof.Proof.IdealFrame
import proofs.«153847_j85177791414715_1_alg».proof.Proof.IdealResult
import proofs.«153847_j85177791414715_1_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs to the end and leaves the features and the labels unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The inverse temperature's word is read, over the extended reals, as the reciprocal of the reference's temperature. -/
theorem preserves : Cert.preserves_Kernel_KernelIdeal :=
  IdealRules.named_const.statement Cert.KernelIdeal.κ "inv_temp" .f32 0x41200000#32 ((134217728 / 13421773 : ℝ) : EReal) rfl

/-- Both idealized programs end at the specification's total of the normalised features and the labels. -/
theorem algebraic : Cert.algebraic_KernelIdeal_ReferenceIdeal := by
  intro m ρ m' ρ' _ hagree
  refine ⟨fun c => fun _ => Cert.Contrast.total Cert.KernelIdeal.PayValue.κ' Cert.KernelIdeal.PayValue.ε
      (Cert.ReferenceIdeal.Read.val_main_v4 (F := Ideal) (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main (F := Ideal) m ρ)
    · rw [(h c).2 Cert.KernelIdeal.main_v11 (Pipeline.mem_restRefs_of Cert.KernelIdeal.main_v11 rfl (by decide)),
        Cert.KernelIdeal.Hand.result_eq, Cert.KernelIdeal.Hand.nf_eq]
    · exact ((h c).2 Cert.KernelIdeal.main_arg0 (Pipeline.mem_restRefs_of Cert.KernelIdeal.main_arg0 rfl (by decide))).trans (Cert.KernelIdeal.Hand.W_main_arg0 m c)
    · exact ((h c).2 Cert.KernelIdeal.main_arg1 (Pipeline.mem_restRefs_of Cert.KernelIdeal.main_arg1 rfl (by decide))).trans (Cert.KernelIdeal.Hand.W_main_arg1 m c)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_result, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
